-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x128 : Shape := ⟨3, ![50000, 1, 128]⟩
abbrev S800000x1x128 : Shape := ⟨3, ![800000, 1, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S50000x1x128 : S_.BroadcastsInDim S50000x1x128 (![] : Fin 0 → Fin S50000x1x128.rank)
  reducesTo_S50000x1x128_S_d0_1_2 : S50000x1x128.ReducesTo [0, 1, 2] S_
  h_S_ : 0 < S_.numel
  bcast_S_S800000x1x128 : S_.BroadcastsInDim S800000x1x128 (![] : Fin 0 → Fin S800000x1x128.rank)
  reducesTo_S800000x1x128_S_d0_1_2 : S800000x1x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x1x128 .f32) (main_arg1 : FVec F S800000x1x128 .f32) (main_arg2 : IVec S800000 32) (main_arg3 : IVec S800000 32) (main_arg4 : FVec F S128x256 .f32) (main_arg5 : FVec F S128 .f32) (main_arg6 : FVec F S128x256 .f32) (main_arg7 : FVec F S128 .f32) : IVec S_ 1 :=
  let main_v0 : FVec F S50000x1x128 .f32 := Host.absf main_arg0
  let main_cst : FVec F S_ .f32 := constant S_ .f32 0x7F800000#32
  let main_v1 : FVec F S50000x1x128 .f32 := broadcastInDim S50000x1x128 ![] bcast_S_S50000x1x128 main_cst
  let main_v2 : IVec S50000x1x128 1 := cmpf .olt main_v0 main_v1
  let main_c : IVec S_ 1 := constantI S_ 1 1#1
  let main_v3 : IVec S_ 1 := (fun x v => Host.reduce IntOp.andi x v reducesTo_S50000x1x128_S_d0_1_2 h_S_) main_v2 main_c
  let main_v4 : FVec F S800000x1x128 .f32 := Host.absf main_arg1
  let main_cst_0 : FVec F S_ .f32 := constant S_ .f32 0x7F800000#32
  let main_v5 : FVec F S800000x1x128 .f32 := broadcastInDim S800000x1x128 ![] bcast_S_S800000x1x128 main_cst_0
  let main_v6 : IVec S800000x1x128 1 := cmpf .olt main_v4 main_v5
  let main_c_1 : IVec S_ 1 := constantI S_ 1 1#1
  let main_v7 : IVec S_ 1 := (fun x v => Host.reduce IntOp.andi x v reducesTo_S800000x1x128_S_d0_1_2 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x1x128 : Shape := ⟨3, ![50000, 1, 128]⟩
abbrev S800000x1x128 : Shape := ⟨3, ![800000, 1, 128]⟩
abbrev S800000 : Shape := ⟨1, ![800000]⟩
abbrev S128x256 : Shape := ⟨2, ![128, 256]⟩
abbrev S128 : Shape := ⟨1, ![128]⟩
abbrev S50000x128 : Shape := ⟨2, ![50000, 128]⟩
abbrev S800000x128 : Shape := ⟨2, ![800000, 128]⟩
abbrev S_ : Shape := ⟨0, ![]⟩
abbrev S800000x1 : Shape := ⟨2, ![800000, 1]⟩
abbrev S128x128 : Shape := ⟨2, ![128, 128]⟩
abbrev S1x128 : Shape := ⟨2, ![1, 128]⟩
abbrev S6400x128 : Shape := ⟨2, ![6400, 128]⟩
abbrev S50000 : Shape := ⟨1, ![50000]⟩
abbrev S50000x1 : Shape := ⟨2, ![50000, 1]⟩
abbrev S5000x128 : Shape := ⟨2, ![5000, 128]⟩

abbrev nBuf : Space → Nat
  | .hbm => 48
  | .vmem => 18
  | .smem => 0
  | _ => 0

abbrev bufTy : (tb : Table) → Fin (tcTables nBuf tb) → BufTy
  | .hbm, ⟨0, _⟩ => ⟨S50000x1x128, .f32⟩
  | .hbm, ⟨1, _⟩ => ⟨S800000x1x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S50000x128, .f32⟩
  | .hbm, ⟨9, _⟩ => ⟨S800000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S1x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S50000x1x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S6400x128, .f32⟩
  | .local _ .vmem, ⟨8, _⟩ => ⟨S6400x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S50000x1x128_S50000x128 : S50000x1x128.ShapeCasts S50000x128
  shapeCasts_S800000x1x128_S800000x128 : S800000x1x128.ShapeCasts S800000x128
  bcast_S_S800000 : S_.BroadcastsInDim S800000 (![] : Fin 0 → Fin S800000.rank)
  bcast_S800000_S800000x1_0 : S800000.BroadcastsInDim S800000x1 (![0] : Fin 1 → Fin S800000x1.rank)
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S50000x128_S50000x1x128 : S50000x128.ShapeCasts S50000x1x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S800000x128.size a
  hwx0_5 : ∀ i : grid0.Coords, EltTy.bits .f32 = 32 ∨ (Rect.block (s := S800000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v8) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x1x128 : Shape := ⟨3, ![50000, 1, 128]⟩
abbrev S800000x1x128 : Shape := ⟨3, ![800000, 1, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S800000x1x256 : Shape := ⟨3, ![800000, 1, 256]⟩
abbrev S1x1x128 : Shape := ⟨3, ![1, 1, 128]⟩
abbrev S50000 : Shape := ⟨1, ![50000]⟩
abbrev S50000x1x1 : Shape := ⟨3, ![50000, 1, 1]⟩
abbrev S50000x1x256 : Shape := ⟨3, ![50000, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S50000x1x128, .f32⟩
  | .hbm, ⟨1, _⟩ => ⟨S800000x1x128, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x1x128, .f32⟩
  | .hbm, ⟨17, _⟩ => ⟨S800000x1x256, .f32⟩
  | .hbm, ⟨18, _⟩ => ⟨S800000x1x128, .f32⟩
  | .hbm, ⟨19, _⟩ => ⟨S1x1x128, .f32⟩
  | .hbm, ⟨20, _⟩ => ⟨S800000x1x128, .f32⟩
  | .hbm, ⟨21, _⟩ => ⟨S800000x1x128, .f32⟩
  | .hbm, ⟨22, _⟩ => ⟨S_, .f32⟩
  | .hbm, ⟨23, _⟩ => ⟨S50000x1x128, .f32⟩
  | .hbm, ⟨24, _⟩ => ⟨S800000x1, .i32⟩
  | .hbm, ⟨25, _⟩ => ⟨S50000x1x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1x1, .f32⟩
  | .hbm, ⟨36, _⟩ => ⟨S50000x1x128, .f32⟩
  | .hbm, ⟨37, _⟩ => ⟨S50000x1x128, .f32⟩
  | .hbm, ⟨38, _⟩ => ⟨S50000x1x256, .f32⟩
  | .hbm, ⟨39, _⟩ => ⟨S50000x1x128, .f32⟩
  | .hbm, ⟨40, _⟩ => ⟨S1x1x128, .f32⟩
  | .hbm, ⟨41, _⟩ => ⟨S50000x1x128, .f32⟩
  | .hbm, ⟨42, _⟩ => ⟨S50000x1x128, .f32⟩
  | .hbm, ⟨43, _⟩ => ⟨S_, .f32⟩
  | .hbm, ⟨44, _⟩ => ⟨S50000x1x128, .f32⟩
  | .hbm, ⟨45, _⟩ => ⟨S50000x1x128, .f32⟩
  | _, _ => ⟨S50000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x1x128_S800000x1x128_S800000x1x256_d2 : Shape.Concatenates [S800000x1x128, S800000x1x128] S800000x1x256 2
  bcast_S128_S1x1x128_2 : S128.BroadcastsInDim S1x1x128 (![2] : Fin 1 → Fin S1x1x128.rank)
  bcast_S1x1x128_S800000x1x128_0_1_2 : S1x1x128.BroadcastsInDim S800000x1x128 (![0, 1, 2] : Fin 3 → Fin S800000x1x128.rank)
  bcast_S_S50000x1x128 : S_.BroadcastsInDim S50000x1x128 (![] : Fin 0 → Fin S50000x1x128.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x1x128_0_1_2 : S50000x1x1.BroadcastsInDim S50000x1x128 (![0, 1, 2] : Fin 3 → Fin S50000x1x128.rank)
  concatenates_S50000x1x128_S50000x1x128_S50000x1x256_d2 : Shape.Concatenates [S50000x1x128, S50000x1x128] S50000x1x256 2
  bcast_S1x1x128_S50000x1x128_0_1_2 : S1x1x128.BroadcastsInDim S50000x1x128 (![0, 1, 2] : Fin 3 → Fin S50000x1x128.rank)
  gather_S50000x1x128_S800000x1_S800000x1x128_12_0_n_n_0_1_11128_wf : GatherDims.WF S50000x1x128 S800000x1 S800000x1x128 [1, 2] [0] [] [0] [] 1 ![1, 1, 128]
  dot_S800000x1x256_S128x256_S800000x1x128_2_1_01_0_n_n_wf : DotDims.WF S800000x1x256 S128x256 S800000x1x128 [2] [1] [0, 1] [0] [] []
  scatter_S50000x1x128_S800000x1_S800000x1x128_12_0_0_1_wf : ScatterDims.WF S50000x1x128 S800000x1 S800000x1x128 [1, 2] [0] [0] 1
  scatter_S50000_S800000x1_S800000_n_0_0_1_wf : ScatterDims.WF S50000 S800000x1 S800000 [] [0] [0] 1
  dot_S50000x1x256_S128x256_S50000x1x128_2_1_01_0_n_n_wf : DotDims.WF S50000x1x256 S128x256 S50000x1x128 [2] [1] [0, 1] [0] [] []

variable [Facts₀]

def gather_S50000x1x128_S800000x1_S800000x1x128_12_0_n_n_0_1_11128 : GatherDims S50000x1x128 S800000x1 S800000x1x128 where
  offsetDims := [1, 2]
  collapsedSliceDims := [0]
  operandBatchingDims := []
  startIndicesBatchingDims := []
  startIndexMap := [0]
  indexVectorDim := 1
  sliceSizes := ![1, 1, 128]
  wf := gather_S50000x1x128_S800000x1_S800000x1x128_12_0_n_n_0_1_11128_wf
def dot_S800000x1x256_S128x256_S800000x1x128_2_1_01_0_n_n : DotDims S800000x1x256 S128x256 S800000x1x128 where
  lhsContracting := [2]
  rhsContracting := [1]
  lhsNonContracting := [0, 1]
  rhsNonContracting := [0]
  lhsBatch := []
  rhsBatch := []
  wf := dot_S800000x1x256_S128x256_S800000x1x128_2_1_01_0_n_n_wf
def scatter_S50000x1x128_S800000x1_S800000x1x128_12_0_0_1 : ScatterDims S50000x1x128 S800000x1 S800000x1x128 where
  updateWindowDims := [1, 2]
  insertedWindowDims := [0]
  scatterDimsToOperandDims := [0]
  indexVectorDim := 1
  wf := scatter_S50000x1x128_S800000x1_S800000x1x128_12_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x1x256_S128x256_S50000x1x128_2_1_01_0_n_n : DotDims S50000x1x256 S128x256 S50000x1x128 where
  lhsContracting := [2]
  rhsContracting := [1]
  lhsNonContracting := [0, 1]
  rhsNonContracting := [0]
  lhsBatch := []
  rhsBatch := []
  wf := dot_S50000x1x256_S128x256_S50000x1x128_2_1_01_0_n_n_wf

class Facts : Prop extends Facts₀ where

variable [Facts]
-- ==== Proof.KernelRun.lean ====
/-
  The idealized kernel's run with EVERY unscoped buffer named.

  @main is five segments: host operations, the message region, host operations, the apply region, host
  operations. The buffer contents at each boundary are a fold from the launch memory (`Gen.W0` … `Gen.W5`): a
  stretch of host operations applies its operations' functions, a region replaces its arrays by what its
  write-backs leave. Every weakly fair execution ends with each unscoped buffer holding the last boundary's
  contents `Gen.W5`; in particular the result buffer does, and each argument array is what it was at launch.
-/
import proofs.«130609_j6545530159693_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped TensorCore buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result buffer and the eight argument arrays named: the result at the last boundary's
    contents, each argument as launched (no host operation and no region writes an argument). -/
theorem run_result : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)
    (run_all m ρ)

end Cert.KernelIdeal.Whole

end
-- ==== Proof.HostFolds.lean ====
/-
  The host operations of the idealized kernel's @main, read as functions.

  Between the launch and the first region the host reshapes the node and edge features to matrices, normalizes
  the source indices (a negative index wraps once) and gathers the source rows, cuts the message weight into
  its two 128-column halves and transposes each, and reshapes the bias to a row. Between the regions it sums
  the messages per destination node (a scatter-add from zero), counts the edges per node the same way, divides
  the sum by the count clipped below at one, and prepares the second layer's weights and bias as before. After
  the second region it reshapes the result back to rank 3. Each array a region reads, and the result, is
  stated here as one pure term of the launch memory and of the first region's output array.
-/
import proofs.«130609_j6545530159693_1_alg».proof.Proof.Gen.KernelIdeal.Frame
import Idealize.ShloMosaic.Lib.StableHlo.Run

set_option maxRecDepth 16384

noncomputable section

namespace Cert.KernelIdeal.Folds

open Cert.KernelIdeal Cert.KernelIdeal.Gen
open Idealize.ShloMosaic Idealize.ShloMosaic.TcCoe Idealize.ShloMosaic.StableHlo Idealize.SL.Sem

variable {F : FTy → Type} [FloatOps F]

/-! ## The pieces, as functions of the argument arrays -/

/-- The gather's start indices: the source index, wrapped once when negative, as a column. -/
def srcIdx (x2 : S800000.Idx → BitVec 32) : S800000x1.Idx → BitVec 32 :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)

/-- The scatter's indices: the destination index as a column. -/
def dstIdx (x3 : S800000.Idx → BitVec 32) : S800000x1.Idx → BitVec 32 :=
  broadcastInDim S800000x1 ![0] bcast_S800000_S800000x1_0 x3

/-- The divisor: per node, the number of incoming edges clipped below at one, along every column. -/
def degDen (x3 : S800000.Idx → BitVec 32) : S50000x128.Idx → Elt F .f32 :=
  broadcastInDim S50000x128 ![0, 1] bcast_S50000x1_S50000x128_0_1
    (broadcastInDim S50000x1 ![0] bcast_S50000_S50000x1_0
      (maximumf
        (Host.scatterAdd scatter_S50000_S800000x1_S800000_n_0_0_1
          (broadcastInDim S50000 ![] bcast_S_S50000 (constant (F := F) S_ .f32 0x00000000#32))
          (dstIdx x3)
          (broadcastInDim S800000 ![] bcast_S_S800000 (constant (F := F) S_ .f32 0x3F800000#32)))
        (broadcastInDim S50000 ![] bcast_S_S50000 (constant (F := F) S_ .f32 0x3F800000#32))))

/-- A weight's first 128 columns, transposed. -/
def wLo (w : S128x256.Idx → Elt F .f32) : S128x128.Idx → Elt F .f32 :=
  transpose S128x128 [1, 0] (extractStridedSlice S128x128 ![0, 0] w slices_S128x256_S128x128_0_0) transposes_S128x128_S128x128_1_0
/-- A weight's last 128 columns, transposed. -/
def wHi (w : S128x256.Idx → Elt F .f32) : S128x128.Idx → Elt F .f32 :=
  transpose S128x128 [1, 0] (extractStridedSlice S128x128 ![0, 128] w slices_S128x256_S128x128_0_128) transposes_S128x128_S128x128_1_0

/-- The mean of the messages per destination node, from the message array. -/
def meanOf (x3 : S800000.Idx → BitVec 32) (msg : S800000x128.Idx → Elt F .f32) : S50000x128.Idx → Elt F .f32 :=
  Host.divf
    (Host.scatterAdd scatter_S50000x128_S800000x1_S800000x128_1_0_0_1
      (broadcastInDim S50000x128 ![] bcast_S_S50000x128 (constant (F := F) S_ .f32 0x00000000#32)) (dstIdx x3) msg)
    (degDen x3)

variable (m : (ℓ : Loc nD τ sig) → Buf (Elt F) ℓ) (ρ : Dev nD → PrngReg)

/-! ## Before the first region -/

theorem V1_v8 (c : Dev nD) : (V1 m ρ c main_v8 : S800000x128.Idx → Elt F .f32)
    = Host.gather gather_S50000x128_S800000x1_S800000x128_1_0_n_n_0_1_1128
        (shapeCast S50000x128 (m ((c : Thread nD τ).loc main_arg0)) shapeCasts_S50000x1x128_S50000x128)
        (srcIdx (m ((c : Thread nD τ).loc main_arg2))) := by
  show StableHlo.after hostOps0 (W0 m ρ c) (Proc.devRef .tc main_v8) = _
  after_results
  rfl

theorem V1_v1 (c : Dev nD) : (V1 m ρ c main_v1 : S800000x128.Idx → Elt F .f32)
    = shapeCast S800000x128 (m ((c : Thread nD τ).loc main_arg1)) shapeCasts_S800000x1x128_S800000x128 := by
  show StableHlo.after hostOps0 (W0 m ρ c) (Proc.devRef .tc main_v1) = _
  after_results
  rfl

theorem V1_v11 (c : Dev nD) : (V1 m ρ c main_v11 : S128x128.Idx → Elt F .f32) = wLo (m ((c : Thread nD τ).loc main_arg4)) := by
  show StableHlo.after hostOps0 (W0 m ρ c) (Proc.devRef .tc main_v11) = _
  after_results
  rfl

theorem V1_v12 (c : Dev nD) : (V1 m ρ c main_v12 : S128x128.Idx → Elt F .f32) = wHi (m ((c : Thread nD τ).loc main_arg4)) := by
  show StableHlo.after hostOps0 (W0 m ρ c) (Proc.devRef .tc main_v12) = _
  after_results
  rfl

theorem V1_v13 (c : Dev nD) : (V1 m ρ c main_v13 : S1x128.Idx → Elt F .f32)
    = shapeCast S1x128 (m ((c : Thread nD τ).loc main_arg5)) shapeCasts_S128_S1x128 := by
  show StableHlo.after hostOps0 (W0 m ρ c) (Proc.devRef .tc main_v13) = _
  after_results
  rfl

theorem W1_v0 (c : Dev nD) : (W1 m ρ c (Proc.devRef .tc main_v0) : S50000x128.Idx → Elt F .f32)
    = shapeCast S50000x128 (m ((c : Thread nD τ).loc main_arg0)) shapeCasts_S50000x1x128_S50000x128 := by
  show StableHlo.after hostOps0 (W0 m ρ c) (Proc.devRef .tc main_v0) = _
  after_results
  rfl

/-! ## Across the first region: what it does not write is what was there -/

theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem W2_v0 (c : Dev nD) : (W2 m ρ c (Proc.devRef .tc main_v0) : S50000x128.Idx → Elt F .f32)
    = shapeCast S50000x128 (m ((c : Thread nD τ).loc main_arg0)) shapeCasts_S50000x1x128_S50000x128 := by
  rw [W2_of_ne m ρ c main_v0 (by decide)]
  exact W1_v0 m ρ c

/-- The first region's output array at its exit is what its write-backs leave. -/
theorem W2_v14 (c : Dev nD) : W2 m ρ c (Proc.devRef .tc main_v14) = (dat0 (V1 m ρ) c).arrAt 5 cfg0.N :=
  W2_arr m ρ c 5

/-! ## Before the second region -/

theorem V3_v0 (c : Dev nD) : (V3 m ρ c main_v0 : S50000x128.Idx → Elt F .f32)
    = shapeCast S50000x128 (m ((c : Thread nD τ).loc main_arg0)) shapeCasts_S50000x1x128_S50000x128 := by
  show StableHlo.after hostOps1 (W2 m ρ c) (Proc.devRef .tc main_v0) = _
  after_results
  exact W2_v0 m ρ c

theorem V3_v26 (c : Dev nD) : (V3 m ρ c main_v26 : S50000x128.Idx → Elt F .f32)
    = meanOf (m ((c : Thread nD τ).loc main_arg3)) ((dat0 (V1 m ρ) c).arrAt 5 cfg0.N) := by
  show StableHlo.after hostOps1 (W2 m ρ c) (Proc.devRef .tc main_v26) = _
  after_results
  rw [W2_arg3, W2_v14]
  rfl

theorem V3_v29 (c : Dev nD) : (V3 m ρ c main_v29 : S128x128.Idx → Elt F .f32) = wLo (m ((c : Thread nD τ).loc main_arg6)) := by
  show StableHlo.after hostOps1 (W2 m ρ c) (Proc.devRef .tc main_v29) = _
  after_results
  rw [W2_arg6]
  rfl

theorem V3_v30 (c : Dev nD) : (V3 m ρ c main_v30 : S128x128.Idx → Elt F .f32) = wHi (m ((c : Thread nD τ).loc main_arg6)) := by
  show StableHlo.after hostOps1 (W2 m ρ c) (Proc.devRef .tc main_v30) = _
  after_results
  rw [W2_arg6]
  rfl

theorem V3_v31 (c : Dev nD) : (V3 m ρ c main_v31 : S1x128.Idx → Elt F .f32)
    = shapeCast S1x128 (m ((c : Thread nD τ).loc main_arg7)) shapeCasts_S128_S1x128 := by
  show StableHlo.after hostOps1 (W2 m ρ c) (Proc.devRef .tc main_v31) = _
  after_results
  rw [W2_arg7]
  rfl

/-! ## After the second region -/

theorem W5_v33 (c : Dev nD) : (W5 m ρ c (Proc.devRef .tc main_v33) : S50000x1x128.Idx → Elt F .f32)
    = shapeCast S50000x1x128 ((dat1 (V3 m ρ) c).arrAt 5 cfg1.N) shapeCasts_S50000x128_S50000x1x128 := by
  show StableHlo.after hostOps2 (W4 m ρ c) (Proc.devRef .tc main_v33) = _
  after_results
  rw [show W4 m ρ c (Proc.devRef .tc main_v32) = (dat1 (V3 m ρ) c).arrAt 5 cfg1.N from W4_arr m ρ c 5]
  rfl

end Cert.KernelIdeal.Folds

end
-- ==== Proof.Spec.lean ====
/-
  The layer's mathematics, stated once over literal shapes and the extended reals, with no program in sight.

  A GraphSAGE layer with mean aggregation. For an edge e with source row g(e):
      message  m[e, o]   = Σ_k nf[g(e), k] · Wm[o, k] + Σ_k ef[e, k] · Wm[o, 128 + k] + bm[o]
      sum      s[n, o]   = Σ_{e : dst(e) = n} m[e, o]          deg[n] = #{e : dst(e) = n}
      mean     h[n, o]   = s[n, o] / max(deg[n], 1)
      output   y[n, o]   = max(Σ_k nf[n, k] · Wa[o, k] + Σ_k h[n, k] · Wa[o, 128 + k] + ba[o], 0).
  Both programs compute this; one contracts the two 128-wide halves of the weight separately, the other
  concatenates the two inputs and contracts once over 256. The only law between them is that a sum over
  Fin 256 is the sum over its two halves.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- Two inputs of width 128 through two 128×128 weights and a bias row, at row `p` and column `q`:
    `Σ_k x[p,k]·wa[k,q] + Σ_k y[p,k]·wb[k,q] + b[0,q]`. -/
def lin2At {R : Nat} (x y : (⟨2, ![R, 128]⟩ : Shape).Idx → EReal) (wa wb : (⟨2, ![128, 128]⟩ : Shape).Idx → EReal)
    (b : (⟨2, ![1, 128]⟩ : Shape).Idx → EReal) (p : Fin R) (q : Fin 128) : EReal :=
  (∑ k : Fin 128, x (ix2 p k) * wa (ix2 k q)) + (∑ k : Fin 128, y (ix2 p k) * wb (ix2 k q)) + b (ix2 (0 : Fin 1) q)

/-- The same as a whole array. -/
def lin2 {R : Nat} (x y : (⟨2, ![R, 128]⟩ : Shape).Idx → EReal) (wa wb : (⟨2, ![128, 128]⟩ : Shape).Idx → EReal)
    (b : (⟨2, ![1, 128]⟩ : Shape).Idx → EReal) : (⟨2, ![R, 128]⟩ : Shape).Idx → EReal :=
  fun j => lin2At x y wa wb b ⟨(j 0).val, idx2_lt0 j⟩ ⟨(j 1).val, idx2_lt1 j⟩

theorem lin2_ix2 {R : Nat} (x y : (⟨2, ![R, 128]⟩ : Shape).Idx → EReal) (wa wb : (⟨2, ![128, 128]⟩ : Shape).Idx → EReal)
    (b : (⟨2, ![1, 128]⟩ : Shape).Idx → EReal) (p : Fin R) (q : Fin 128) :
    lin2 x y wa wb b (ix2 p q) = lin2At x y wa wb b p q := rfl

/-- The layer's last step: the linear part clipped below at the value of the zero word. -/
def lin2Relu {R : Nat} (x y : (⟨2, ![R, 128]⟩ : Shape).Idx → EReal) (wa wb : (⟨2, ![128, 128]⟩ : Shape).Idx → EReal)
    (b : (⟨2, ![1, 128]⟩ : Shape).Idx → EReal) : (⟨2, ![R, 128]⟩ : Shape).Idx → EReal :=
  fun j => max (lin2 x y wa wb b j) (Ideal.ofBits .f32 0x00000000#32)

/-- A sum over `Fin 256` is the sum over its lower half plus the sum over its upper half (commutativity and
    associativity of addition only: it holds on the extended reals with no finiteness assumption). -/
theorem sum_fin256_halves {M : Type*} [AddCommMonoid M] (f : Fin 256 → M) :
    ∑ k : Fin 256, f k = (∑ k : Fin 128, f ⟨k.val, by omega⟩) + ∑ k : Fin 128, f ⟨128 + k.val, by omega⟩ := by
  exact Fin.sum_univ_add (a := 128) (b := 128) (f := fun i : Fin (128 + 128) => f ⟨i.val, i.isLt⟩)

end Cert.Sage

end
-- ==== Proof.GlueAt.lean ====
/-
  The host glue read at an index, on the extended reals.

  A reshape between [N, 128] and [N, 1, 128] keeps the row and the column; a weight's transposed halves read
  the weight at (column, row) and (column, 128 + row); a bias reshaped to one row reads the bias at the column.
-/
import proofs.«130609_j6545530159693_1_alg».proof.Proof.HostFolds
import Idealize.ShloMosaic.PureOps.Ideal
import Idealize.ShloMosaic.Lib.Pipeline.Value
import Idealize.ShloMosaic.Lib.ValueIdx
import proofs.«130609_j6545530159693_1_alg».proof.Proof.Spec

set_option maxRecDepth 16384

noncomputable section

namespace Cert.KernelIdeal.Folds

open Cert.KernelIdeal Cert.KernelIdeal.Facts₀
open Idealize.ShloMosaic Idealize.ShloMosaic.ValueIdx

/-- Node features as a matrix: row `n`, column `k` is the feature `(n, 0, k)`. -/
theorem nodes_at (x0 : S50000x1x128.Idx → EReal) (n : Fin 50000) (k : Fin 128) :
    shapeCast S50000x128 x0 shapeCasts_S50000x1x128_S50000x128 (ix2 n k) = x0 (ix3 n (0 : Fin 1) k) := by
  refine shapeCast_apply x0 _ (ix2 n k) (ix3 n (0 : Fin 1) k) ?_
  rw [Shape.rowMajor_val_three, Shape.rowMajor_val_two]
  show (n.val * 1 + 0) * 128 + k.val = n.val * 128 + k.val
  omega

/-- Edge features as a matrix. -/
theorem edges_at (x1 : S800000x1x128.Idx → EReal) (e : Fin 800000) (k : Fin 128) :
    shapeCast S800000x128 x1 shapeCasts_S800000x1x128_S800000x128 (ix2 e k) = x1 (ix3 e (0 : Fin 1) k) := by
  refine shapeCast_apply x1 _ (ix2 e k) (ix3 e (0 : Fin 1) k) ?_
  rw [Shape.rowMajor_val_three, Shape.rowMajor_val_two]
  show (e.val * 1 + 0) * 128 + k.val = e.val * 128 + k.val
  omega

/-- The result back at rank 3. -/
theorem result_at (y : S50000x128.Idx → EReal) (n : Fin 50000) (o : Fin 128) :
    shapeCast S50000x1x128 y shapeCasts_S50000x128_S50000x1x128 (ix3 n (0 : Fin 1) o) = y (ix2 n o) := by
  refine shapeCast_apply y _ (ix3 n (0 : Fin 1) o) (ix2 n o) ?_
  rw [Shape.rowMajor_val_three, Shape.rowMajor_val_two]
  show n.val * 128 + o.val = (n.val * 1 + 0) * 128 + o.val
  omega

/-- A bias as one row. -/
theorem bias_at (x5 : S128.Idx → EReal) (o : Fin 128) :
    shapeCast S1x128 x5 shapeCasts_S128_S1x128 (ix2 (0 : Fin 1) o) = x5 (ix1 o) := by
  refine shapeCast_apply x5 _ (ix2 (0 : Fin 1) o) (ix1 o) ?_
  rw [Shape.rowMajor_val_one, Shape.rowMajor_val_two]
  show o.val = 0 * 128 + o.val
  omega

/-- The first half of a weight, transposed: entry `(k, o)` is the weight at `(o, k)`. -/
theorem wLo_at (w : S128x256.Idx → EReal) (k o : Fin 128) :
    wLo (F := Ideal) w (ix2 k o) = w (ix2 o (⟨k.val, by omega⟩ : Fin 256)) := by
  unfold wLo
  refine (transpose_apply [1, 0] _ transposes_S128x128_S128x128_1_0 (ix2 k o) (ix2 o k) ?_).trans ?_
  · intro b
    match b with
    | ⟨0, _⟩ => rfl
    | ⟨1, _⟩ => rfl
  · refine extractStridedSlice_apply ![0, 0] w slices_S128x256_S128x128_0_0 (ix2 o k) (ix2 o (⟨k.val, by omega⟩ : Fin 256)) ?_
    intro a
    match a with
    | ⟨0, _⟩ => show o.val = 0 + o.val; omega
    | ⟨1, _⟩ => show k.val = 0 + k.val; omega

/-- The second half of a weight, transposed: entry `(k, o)` is the weight at `(o, 128 + k)`. -/
theorem wHi_at (w : S128x256.Idx → EReal) (k o : Fin 128) :
    wHi (F := Ideal) w (ix2 k o) = w (ix2 o (⟨128 + k.val, by omega⟩ : Fin 256)) := by
  unfold wHi
  refine (transpose_apply [1, 0] _ transposes_S128x128_S128x128_1_0 (ix2 k o) (ix2 o k) ?_).trans ?_
  · intro b
    match b with
    | ⟨0, _⟩ => rfl
    | ⟨1, _⟩ => rfl
  · refine extractStridedSlice_apply ![0, 128] w slices_S128x256_S128x128_0_128 (ix2 o k) (ix2 o (⟨128 + k.val, by omega⟩ : Fin 256)) ?_
    intro a
    match a with
    | ⟨0, _⟩ => show o.val = 0 + o.val; omega
    | ⟨1, _⟩ => show 128 + k.val = 128 + k.val; rfl

/-- THE LAYER AS THE KERNEL COMPUTES IT, one pure term of the eight argument arrays: the message stage over the
    gathered source rows and the edge features, the mean over incoming edges, the apply stage over the node
    features and the mean, clipped below at zero, back at rank 3. -/
def kernelTerm (x0 : S50000x1x128.Idx → EReal) (x1 : S800000x1x128.Idx → EReal) (x2 x3 : S800000.Idx → BitVec 32)
    (x4 : S128x256.Idx → EReal) (x5 : S128.Idx → EReal) (x6 : S128x256.Idx → EReal) (x7 : S128.Idx → EReal) :
    S50000x1x128.Idx → EReal :=
  shapeCast S50000x1x128
    (Cert.Sage.lin2Relu (shapeCast S50000x128 x0 shapeCasts_S50000x1x128_S50000x128)
      (meanOf (F := Ideal) x3
        (Cert.Sage.lin2
          (Host.gather gather_S50000x128_S800000x1_S800000x128_1_0_n_n_0_1_1128
            (shapeCast S50000x128 x0 shapeCasts_S50000x1x128_S50000x128) (srcIdx x2))
          (shapeCast S800000x128 x1 shapeCasts_S800000x1x128_S800000x128)
          (wLo (F := Ideal) x4) (wHi (F := Ideal) x4) (shapeCast S1x128 x5 shapeCasts_S128_S1x128)))
      (wLo (F := Ideal) x6) (wHi (F := Ideal) x6) (shapeCast S1x128 x7 shapeCasts_S128_S1x128))
    shapeCasts_S50000x128_S50000x1x128

end Cert.KernelIdeal.Folds

end
-- ==== Proof.MessageBlocks.lean ====
/-
  The message region, block by block.

  The grid has 125 points. Point t stages rows [6400 t, 6400 t + 6400) of the gathered source rows and of the
  edge features, the whole of the two 128×128 weights and of the bias row, and writes back the same rows of
  the output. At row p and column q of a block the body computes
      Σ_k h[p, k] · wa[k, q] + Σ_k e[p, k] · wb[k, q] + b[0, q]
  (narrowing to bf16 is the identity on extended reals; each product accumulates into zero). A block's
  coordinate is its index times its size plus the coordinate inside it, so every block is the restriction of
  ONE whole-array function of the arrays the region was entered with; the 125 blocks of 6400 rows fill the
  800000 rows; hence the output array after the region is that function.
-/
import proofs.«130609_j6545530159693_1_alg».proof.Proof.Gen.KernelIdeal.Frame
import proofs.«130609_j6545530159693_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.MessageBlocks

open Cert.KernelIdeal Cert.KernelIdeal.Gen Idealize.ShloMosaic Idealize.ShloMosaic.ValueIdx
open Idealize.ShloMosaic.TcCoe Idealize.SL.Sem
open Idealize.ShloMosaic.Pipeline (Dat)

/-! ## The body's arithmetic at one element -/

/-- Row coordinate of the left operand of the product: the output's row. -/
theorem lhs_row (i : S6400x128.Idx) (k : dot_S6400x128_S128x128_S6400x128_1_0_0_1_n_n.contr.Idx) :
    (dot_S6400x128_S128x128_S6400x128_1_0_0_1_n_n.lhsIdx i k 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl

/-- Column coordinate of the right operand of the product: the output's column. -/
theorem rhs_col (i : S6400x128.Idx) (k : dot_S6400x128_S128x128_S6400x128_1_0_0_1_n_n.contr.Idx) :
    (dot_S6400x128_S128x128_S6400x128_1_0_0_1_n_n.rhsIdx i k 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- A 6400×128 by 128×128 product into the zero accumulator, at row `p` and column `q`, is the sum over the
    contracted coordinate of the products of the entries. -/
theorem matmul_at {φ₁ φ₂ : FTy} (A : FVec Ideal S6400x128 φ₁) (B : FVec Ideal S128x128 φ₂) (p : Fin 6400) (q : Fin 128) :
    matmul (F := Ideal) dot_S6400x128_S128x128_S6400x128_1_0_0_1_n_n none A B (constant (F := Ideal) S6400x128 .f32 0x00000000#32) (ix2 p q)
      = ∑ k : Fin 128, A (ix2 p k) * B (ix2 k q) := by
  simp only [matmul]
  rw [Ideal.matmul_constant_zero_apply,
    ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p q)
      ((contrEquiv1 dot_S6400x128_S128x128_S6400x128_1_0_0_1_n_n 128 rfl rfl).symm k) = ix2 p k :=
    funext fun a => Fin.ext (by
      match a with
      | ⟨0, _⟩ => exact lhs_row _ _
      | ⟨1, _⟩ => exact (dot_S6400x128_S128x128_S6400x128_1_0_0_1_n_n.lhsIdx_val_of_single rfl _ _).trans hk)
  have er : dot_S6400x128_S128x128_S6400x128_1_0_0_1_n_n.rhsIdx (ix2 p q)
      ((contrEquiv1 dot_S6400x128_S128x128_S6400x128_1_0_0_1_n_n 128 rfl rfl).symm k) = ix2 k q :=
    funext fun a => Fin.ext (by
      match a with
      | ⟨0, _⟩ => exact (dot_S6400x128_S128x128_S6400x128_1_0_0_1_n_n.rhsIdx_val_of_single rfl _ _).trans hk
      | ⟨1, _⟩ => exact rhs_col _ _)
  rw [el, er]

/-- The bias row spread down the rows, at row `p` and column `q`, is the row's entry at column `q`. -/
theorem bias_at (b : Vec Ideal S1x128 .f32) (p : Fin 6400) (q : Fin 128) :
    broadcastTo S6400x128 b broadcasts_S1x128_S6400x128 (ix2 p q) = b (ix2 (0 : Fin 1) q) :=
  broadcastTo_apply b broadcasts_S1x128_S6400x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- THE BODY AT AN ELEMENT: the two products added, plus the bias. -/
theorem pay_at (x0 x1 : Vec Ideal S6400x128 .f32) (x2 x3 : Vec Ideal S128x128 .f32) (x4 : Vec Ideal S1x128 .f32)
    (p : Fin 6400) (q : Fin 128) :
    k0_pay1 (F := Ideal) x0 x1 x2 x3 x4 (ix2 p q) = Cert.Sage.lin2At x0 x1 x2 x3 x4 p q := by
  unfold k0_pay1
  simp only [shapeCast_self]
  rw [addf_apply, addf_apply, matmul_at, matmul_at, bias_at]
  rfl

/-! ## What each grid point writes back -/

theorem hz : (![0, 0] : Fin 2 → Nat) = fun _ => 0 := funext fun a => by fin_cases a <;> rfl

/-- The printed index maps over the grid: the two row-blocked inputs and the output sit at block (t, 0); the two
    weights and the bias row are whole arrays, block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The linear map of a block of rows is the block of rows of the linear map: row `p` of the blocks is row `r` of
    the arrays, the weights and the bias are shared. -/
theorem lin2At_of_rows {x y : S800000x128.Idx → EReal} {wa wb : S128x128.Idx → EReal} {b : S1x128.Idx → EReal}
    (x0 x1 : S6400x128.Idx → EReal) (x2 x3 : S128x128.Idx → EReal) (x4 : S1x128.Idx → EReal)
    (p : Fin 6400) (r : Fin 800000) (q q' : Fin 128)
    (h0 : ∀ k : Fin 128, x0 (ix2 p k) = x (ix2 r k)) (h1 : ∀ k : Fin 128, x1 (ix2 p k) = y (ix2 r k))
    (h2 : x2 = wa) (h3 : x3 = wb) (h4 : x4 = b) (hq : q = q') :
    Cert.Sage.lin2At x0 x1 x2 x3 x4 p q = Cert.Sage.lin2At x y wa wb b r q' := by
  subst h2 h3 h4 hq
  unfold Cert.Sage.lin2At
  simp only [h0, h1]

variable (V : (c : Dev nD) → (b : Ref sig .tc) → Buf (Elt Ideal) ((c : Thread nD τ).loc b))

/-- WHAT POINT `t` WRITES BACK is block `t` of the linear map of the arrays as the region finds them. -/
theorem flushed_eq (c : Dev nD) (t : Fin cfg0.N) :
    (dat0 (F := Ideal) V c).flushed 5 t = ((cfg0.win 5).blk t).view.read (Elt Ideal)
      (Cert.Sage.lin2 (V c main_v8) (V c main_v1) (V c main_v11) (V c main_v12) (V c main_v13)) := by
  show (cfg0.win 5).cut (grid0.coords t) ((dat0 (F := Ideal) V c).after 5 t) = _
  rw [after0_5]
  unfold out0_5
  rw [View.canon_unit_zero hz]
  simp only [View.ld_unit_zero (S := S6400x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 6400) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.lin2 (V c main_v8) (V c main_v1) (V c main_v11) (V c main_v12) (V c main_v13) (((cfg0.win 5).blk t).view.emb (ix2 p q))
  refine (pay_at (iblk0 V c 0 t) (iblk0 V c 1 t) (iblk0 V c 2 t) (iblk0 V c 3 t) (iblk0 V c 4 t) p q).trans ?_
  refine lin2At_of_rows (iblk0 V c 0 t) (iblk0 V c 1 t) (iblk0 V c 2 t) (iblk0 V c 3 t) (iblk0 V c 4 t) p
    ⟨((((cfg0.win 5).blk t).view.emb (ix2 p q)) 0).val, idx2_lt0 _⟩ q ⟨((((cfg0.win 5).blk t).view.emb (ix2 p q)) 1).val, idx2_lt1 _⟩
    (fun k => ?_) (fun k => ?_) ?_ ?_ ?_ ?_
  · show V c main_v8 (((cfg0.win 0).blk t).view.emb (ix2 p k)) = V c main_v8 _
    refine congrArg (V c main_v8) (funext fun a => Fin.ext ?_)
    match a with
    | ⟨0, _⟩ => show win0_0.index t (0 : Fin 2) * 6400 + 1 * p.val = win0_5.index t (0 : Fin 2) * 6400 + 1 * p.val; rw [e00, e50]
    | ⟨1, _⟩ => show win0_0.index t (1 : Fin 2) * 128 + 1 * k.val = k.val; rw [e01]; omega
  · show V c main_v1 (((cfg0.win 1).blk t).view.emb (ix2 p k)) = V c main_v1 _
    refine congrArg (V c main_v1) (funext fun a => Fin.ext ?_)
    match a with
    | ⟨0, _⟩ => show win0_1.index t (0 : Fin 2) * 6400 + 1 * p.val = win0_5.index t (0 : Fin 2) * 6400 + 1 * p.val; rw [e10, e50]
    | ⟨1, _⟩ => show win0_1.index t (1 : Fin 2) * 128 + 1 * k.val = k.val; rw [e11]; omega
  · funext x
    show V c main_v11 (((cfg0.win 2).blk t).view.emb x) = V c main_v11 x
    refine congrArg (V c main_v11) (funext fun a => Fin.ext ?_)
    match a with
    | ⟨0, _⟩ => show win0_2.index t (0 : Fin 2) * 128 + 1 * (x 0).val = (x 0).val; rw [e20]; omega
    | ⟨1, _⟩ => show win0_2.index t (1 : Fin 2) * 128 + 1 * (x 1).val = (x 1).val; rw [e21]; omega
  · funext x
    show V c main_v12 (((cfg0.win 3).blk t).view.emb x) = V c main_v12 x
    refine congrArg (V c main_v12) (funext fun a => Fin.ext ?_)
    match a with
    | ⟨0, _⟩ => show win0_3.index t (0 : Fin 2) * 128 + 1 * (x 0).val = (x 0).val; rw [e30]; omega
    | ⟨1, _⟩ => show win0_3.index t (1 : Fin 2) * 128 + 1 * (x 1).val = (x 1).val; rw [e31]; omega
  · funext x
    show V c main_v13 (((cfg0.win 4).blk t).view.emb x) = V c main_v13 x
    refine congrArg (V c main_v13) (funext fun a => Fin.ext ?_)
    match a with
    | ⟨0, _⟩ => show win0_4.index t (0 : Fin 2) * 1 + 1 * (x 0).val = (x 0).val; rw [e40]; omega
    | ⟨1, _⟩ => show win0_4.index t (1 : Fin 2) * 128 + 1 * (x 1).val = (x 1).val; rw [e41]; omega
  · refine Fin.ext ?_
    show q.val = win0_5.index t (1 : Fin 2) * 128 + 1 * q.val
    rw [e51]; omega

/-! ## The blocks cover the array -/

/-- An index of the array is in point `t`'s block iff each coordinate is in the block's range on its axis. -/
theorem mem_blk (t : Fin cfg0.N) (i : S800000x128.Idx) :
    i ∈ ((cfg0.win 5).blk t).view.set ↔ ∀ a : Fin 2, win0_5.index t a * S6400x128.size a ≤ (i a).val
      ∧ (i a).val < win0_5.index t a * S6400x128.size a + S6400x128.size a := by
  show i ∈ ((View.whole main_v14).slice (win0_5.rect t)).set ↔ _
  rw [View.set_slice_whole, Rect.mem_set_unit]
  exact Iff.rfl

/-- Row `r` is in the block of point `r / 6400`: the 125 blocks of 6400 rows fill the 800000 rows. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have ht : (i 0).val / 6400 < 125 := by omega
  obtain ⟨-, -, -, -, -, -, -, -, -, -, e50, e51⟩ := idx_facts ⟨(i 0).val / 6400, ht⟩
  refine ⟨⟨(i 0).val / 6400, ht⟩, flush0_5 _, ?_⟩
  rw [mem_blk]
  intro a
  match a with
  | ⟨0, _⟩ =>
    show win0_5.index ⟨(i 0).val / 6400, ht⟩ (0 : Fin 2) * 6400 ≤ (i 0).val
      ∧ (i 0).val < win0_5.index ⟨(i 0).val / 6400, ht⟩ (0 : Fin 2) * 6400 + 6400
    rw [e50]; show (i 0).val / 6400 * 6400 ≤ (i 0).val ∧ (i 0).val < (i 0).val / 6400 * 6400 + 6400; omega
  | ⟨1, _⟩ =>
    show win0_5.index ⟨(i 0).val / 6400, ht⟩ (1 : Fin 2) * 128 ≤ (i 1).val
      ∧ (i 1).val < win0_5.index ⟨(i 0).val / 6400, ht⟩ (1 : Fin 2) * 128 + 128
    rw [e51]; omega

/-! ## The array after the region -/

/-- THE OUTPUT ARRAY after the region is the linear map of the arrays the region was entered with. -/
theorem message_final (c : Dev nD) :
    (dat0 (F := Ideal) V c).arrAt 5 cfg0.N
      = Cert.Sage.lin2 (V c main_v8) (V c main_v1) (V c main_v11) (V c main_v12) (V c main_v13) :=
  (dat0 (F := Ideal) V c).arrAt_eq_of_cover 5 _ (fun t _ => flushed_eq V c t) cover

end Cert.KernelIdeal.MessageBlocks

end
-- ==== Proof.ApplyBlocks.lean ====
/-
  The apply region, block by block.

  The grid has 10 points. Point t stages rows [5000 t, 5000 t + 5000) of the node features and of the mean of
  the incoming messages, the whole of the two 128×128 weights and of the bias row, and writes back the same
  rows of the output. At row p and column q of a block the body computes
      max(Σ_k x[p, k] · wa[k, q] + Σ_k h[p, k] · wb[k, q] + b[0, q], 0)
  (narrowing to bf16 is the identity on extended reals; each product accumulates into zero). Every block is
  the restriction of ONE whole-array function of the arrays the region was entered with; the 10 blocks of 5000
  rows fill the 50000 rows; hence the output array after the region is that function.
-/
import proofs.«130609_j6545530159693_1_alg».proof.Proof.Gen.KernelIdeal.Frame
import proofs.«130609_j6545530159693_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.ApplyBlocks

open Cert.KernelIdeal Cert.KernelIdeal.Gen Idealize.ShloMosaic Idealize.ShloMosaic.ValueIdx
open Idealize.ShloMosaic.TcCoe Idealize.SL.Sem
open Idealize.ShloMosaic.Pipeline (Dat)

/-! ## The body's arithmetic at one element -/

/-- Row coordinate of the left operand of the product: the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Column coordinate of the right operand of the product: the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 by 128×128 product into the zero accumulator, at row `p` and column `q`, is the sum over the
    contracted coordinate of the products of the entries. -/
theorem matmul_at {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The bias row spread down the rows, at row `p` and column `q`, is the row's entry at column `q`. -/
theorem bias_at (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- THE BODY AT AN ELEMENT: the two products added, plus the bias, clipped below at the value of the zero word. -/
theorem pay_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (Cert.Sage.lin2At x0 x1 x2 x3 x4 p q) (Ideal.ofBits .f32 0x00000000#32) := by
  unfold k1_pay1
  simp only [shapeCast_self]
  rw [maximumf_apply, addf_apply, addf_apply, matmul_at, matmul_at, bias_at, broadcast_apply]
  rfl

/-! ## What each grid point writes back -/

theorem hz : (![0, 0] : Fin 2 → Nat) = fun _ => 0 := funext fun a => by fin_cases a <;> rfl

/-- The printed index maps over the grid: the two row-blocked inputs and the output sit at block (t, 0); the two
    weights and the bias row are whole arrays, block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The linear map of a block of rows is the block of rows of the linear map: row `p` of the blocks is row `r` of
    the arrays, the weights and the bias are shared. -/
theorem lin2At_of_rows {x y : S50000x128.Idx → EReal} {wa wb : S128x128.Idx → EReal} {b : S1x128.Idx → EReal}
    (x0 x1 : S5000x128.Idx → EReal) (x2 x3 : S128x128.Idx → EReal) (x4 : S1x128.Idx → EReal)
    (p : Fin 5000) (r : Fin 50000) (q q' : Fin 128)
    (h0 : ∀ k : Fin 128, x0 (ix2 p k) = x (ix2 r k)) (h1 : ∀ k : Fin 128, x1 (ix2 p k) = y (ix2 r k))
    (h2 : x2 = wa) (h3 : x3 = wb) (h4 : x4 = b) (hq : q = q') :
    Cert.Sage.lin2At x0 x1 x2 x3 x4 p q = Cert.Sage.lin2At x y wa wb b r q' := by
  subst h2 h3 h4 hq
  unfold Cert.Sage.lin2At
  simp only [h0, h1]

variable (V : (c : Dev nD) → (b : Ref sig .tc) → Buf (Elt Ideal) ((c : Thread nD τ).loc b))

/-- WHAT POINT `t` WRITES BACK is block `t` of the clipped linear map of the arrays as the region finds them. -/
theorem flushed_eq (c : Dev nD) (t : Fin cfg1.N) :
    (dat1 (F := Ideal) V c).flushed 5 t = ((cfg1.win 5).blk t).view.read (Elt Ideal)
      (Cert.Sage.lin2Relu (V c main_v0) (V c main_v26) (V c main_v29) (V c main_v30) (V c main_v31)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Sage.lin2Relu (V c main_v0) (V c main_v26) (V c main_v29) (V c main_v30) (V c main_v31) (((cfg1.win 5).blk t).view.emb (ix2 p q))
  refine (pay_at (iblk1 V c 0 t) (iblk1 V c 1 t) (iblk1 V c 2 t) (iblk1 V c 3 t) (iblk1 V c 4 t) p q).trans ?_
  show max (Cert.Sage.lin2At (iblk1 V c 0 t) (iblk1 V c 1 t) (iblk1 V c 2 t) (iblk1 V c 3 t) (iblk1 V c 4 t) p q) (Ideal.ofBits .f32 0x00000000#32)
    = max (Cert.Sage.lin2 (V c main_v0) (V c main_v26) (V c main_v29) (V c main_v30) (V c main_v31) (((cfg1.win 5).blk t).view.emb (ix2 p q))) (Ideal.ofBits .f32 0x00000000#32)
  refine congrArg (fun v : EReal => max v (Ideal.ofBits .f32 0x00000000#32)) ?_
  refine lin2At_of_rows (iblk1 V c 0 t) (iblk1 V c 1 t) (iblk1 V c 2 t) (iblk1 V c 3 t) (iblk1 V c 4 t) p
    ⟨((((cfg1.win 5).blk t).view.emb (ix2 p q)) 0).val, idx2_lt0 _⟩ q ⟨((((cfg1.win 5).blk t).view.emb (ix2 p q)) 1).val, idx2_lt1 _⟩
    (fun k => ?_) (fun k => ?_) ?_ ?_ ?_ ?_
  · show V c main_v0 (((cfg1.win 0).blk t).view.emb (ix2 p k)) = V c main_v0 _
    refine congrArg (V c main_v0) (funext fun a => Fin.ext ?_)
    match a with
    | ⟨0, _⟩ => show win1_0.index t (0 : Fin 2) * 5000 + 1 * p.val = win1_5.index t (0 : Fin 2) * 5000 + 1 * p.val; rw [e00, e50]
    | ⟨1, _⟩ => show win1_0.index t (1 : Fin 2) * 128 + 1 * k.val = k.val; rw [e01]; omega
  · show V c main_v26 (((cfg1.win 1).blk t).view.emb (ix2 p k)) = V c main_v26 _
    refine congrArg (V c main_v26) (funext fun a => Fin.ext ?_)
    match a with
    | ⟨0, _⟩ => show win1_1.index t (0 : Fin 2) * 5000 + 1 * p.val = win1_5.index t (0 : Fin 2) * 5000 + 1 * p.val; rw [e10, e50]
    | ⟨1, _⟩ => show win1_1.index t (1 : Fin 2) * 128 + 1 * k.val = k.val; rw [e11]; omega
  · funext x
    show V c main_v29 (((cfg1.win 2).blk t).view.emb x) = V c main_v29 x
    refine congrArg (V c main_v29) (funext fun a => Fin.ext ?_)
    match a with
    | ⟨0, _⟩ => show win1_2.index t (0 : Fin 2) * 128 + 1 * (x 0).val = (x 0).val; rw [e20]; omega
    | ⟨1, _⟩ => show win1_2.index t (1 : Fin 2) * 128 + 1 * (x 1).val = (x 1).val; rw [e21]; omega
  · funext x
    show V c main_v30 (((cfg1.win 3).blk t).view.emb x) = V c main_v30 x
    refine congrArg (V c main_v30) (funext fun a => Fin.ext ?_)
    match a with
    | ⟨0, _⟩ => show win1_3.index t (0 : Fin 2) * 128 + 1 * (x 0).val = (x 0).val; rw [e30]; omega
    | ⟨1, _⟩ => show win1_3.index t (1 : Fin 2) * 128 + 1 * (x 1).val = (x 1).val; rw [e31]; omega
  · funext x
    show V c main_v31 (((cfg1.win 4).blk t).view.emb x) = V c main_v31 x
    refine congrArg (V c main_v31) (funext fun a => Fin.ext ?_)
    match a with
    | ⟨0, _⟩ => show win1_4.index t (0 : Fin 2) * 1 + 1 * (x 0).val = (x 0).val; rw [e40]; omega
    | ⟨1, _⟩ => show win1_4.index t (1 : Fin 2) * 128 + 1 * (x 1).val = (x 1).val; rw [e41]; omega
  · refine Fin.ext ?_
    show q.val = win1_5.index t (1 : Fin 2) * 128 + 1 * q.val
    rw [e51]; omega

/-! ## The blocks cover the array -/

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Row `r` is in the block of point `r / 5000`: the 10 blocks of 5000 rows fill the 50000 rows. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < 10 := by omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-! ## The array after the region -/

/-- THE OUTPUT ARRAY after the region is the clipped linear map of the arrays the region was entered with. -/
theorem apply_final (c : Dev nD) :
    (dat1 (F := Ideal) V c).arrAt 5 cfg1.N
      = Cert.Sage.lin2Relu (V c main_v0) (V c main_v26) (V c main_v29) (V c main_v30) (V c main_v31) :=
  (dat1 (F := Ideal) V c).arrAt_eq_of_cover 5 _ (fun t _ => flushed_eq V c t) cover

end Cert.KernelIdeal.ApplyBlocks

end
-- ==== Proof.KernelValue.lean ====
/-
  The idealized kernel's result array as one pure term of the launch memory.

  The last boundary's contents at the result buffer are the reshape of the second region's output array; that
  array is, block by block, the apply stage of the arrays the region was entered with; those are host terms of
  the arguments and of the first region's output array, which is the message stage of host terms of the
  arguments. Composing gives the layer as the kernel computes it, of the eight argument arrays as launched.
-/
import proofs.«130609_j6545530159693_1_alg».proof.Proof.KernelRun
import proofs.«130609_j6545530159693_1_alg».proof.Proof.GlueAt
import proofs.«130609_j6545530159693_1_alg».proof.Proof.MessageBlocks
import proofs.«130609_j6545530159693_1_alg».proof.Proof.ApplyBlocks

set_option maxRecDepth 16384

noncomputable section

namespace Cert.KernelIdeal.Whole

open Cert.KernelIdeal Cert.KernelIdeal.Gen Cert.KernelIdeal.Folds
open Idealize.ShloMosaic Idealize.ShloMosaic.TcCoe Idealize.SL.Sem

variable (m : (ℓ : Loc nD τ sig) → Buf (Elt Ideal) ℓ) (ρ : Dev nD → PrngReg)

/-- The result buffer's final contents: the layer's term of the argument arrays. -/
theorem result_value (c : Dev nD) :
    (W5 (F := Ideal) m ρ c (Proc.devRef .tc main_v33) : S50000x1x128.Idx → EReal)
      = kernelTerm (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [W5_v33, Cert.KernelIdeal.ApplyBlocks.apply_final (V3 m ρ) c, V3_v0, V3_v26, V3_v29, V3_v30, V3_v31,
    Cert.KernelIdeal.MessageBlocks.message_final (V1 m ρ) c, V1_v8, V1_v1, V1_v11, V1_v12, V1_v13]
  rfl

/-- Every weakly fair execution of the idealized kernel terminates, nothing faulting, with the result buffer at
    the layer's term of the argument arrays and the arguments as launched. -/
theorem run_value : θ_run defs (onTc (τ := τ) (main (F := Ideal))) ⟨m, fun _ => 0, ρ⟩ (fun r => ∀ c : Dev nD,
      r.2.mem ((c.tc : Thread nD τ).loc main_v33)
        = kernelTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.RowMoves.lean ====
/-
  Two data-dependent row moves read at an index, over literal shapes.

  A row gather: result row e is the operand's row number start(e), where start(e) is the 32-bit start word of e read
  as a signed integer and clamped into the operand's row range. A scatter-add (segment sum): the update row e is added
  to the operand's row start(e), the start read signed and NOT clamped, and the update is dropped when start(e) is not
  a row of the operand; so what lands on row n is the sum of the update rows e with start(e) = n.
  Each is stated for rank-2 rows (width 128) and for the same rows carried with a middle axis of extent 1.
-/
import Idealize.ShloMosaic.PureOps.Ideal
import Idealize.ShloMosaic.Lib.ValueIdx

noncomputable section

open scoped BigOperators

namespace Cert.Sage

open Idealize.ShloMosaic Idealize.ShloMosaic.ValueIdx

/-- The row a 32-bit start word selects among 50000 rows: read signed, clamped into [0, 49999]. -/
def gRow (w : BitVec 32) : Fin 50000 := ⟨min w.toInt.toNat 49999, by omega⟩

/-! ## The row gather, rank 2 -/

/-- Gather of whole rows of a 50000×128 operand at 800000 start indices (one scalar each). -/
abbrev gatherDims2 (wf : GatherDims.WF ⟨2, ![50000, 128]⟩ ⟨2, ![800000, 1]⟩ ⟨2, ![800000, 128]⟩ [1] [0] [] [0] [] 1 ![1, 128]) :
    GatherDims ⟨2, ![50000, 128]⟩ ⟨2, ![800000, 1]⟩ ⟨2, ![800000, 128]⟩ where
  offsetDims := [1]
  collapsedSliceDims := [0]
  operandBatchingDims := []
  startIndicesBatchingDims := []
  startIndexMap := [0]
  indexVectorDim := 1
  sliceSizes := ![1, 128]
  wf := wf

/-- Result element (e, k) of the row gather is the operand at (clamped start of e, k). -/
theorem gather2_apply {α : Type} (wf) (x : (⟨2, ![50000, 128]⟩ : Shape).Idx → α) (idx : IVec ⟨2, ![800000, 1]⟩ 32)
    (e : Fin 800000) (k : Fin 128) :
    Host.gather (gatherDims2 wf) x idx (ix2 e k) = x (ix2 (gRow (idx (ix2 e (0 : Fin 1)))) k) := by
  unfold Host.gather
  congr 1
  funext a
  refine Fin.ext ?_
  match a with
  | ⟨0, _⟩ =>
    show (gatherDims2 wf).start (ix2 e k) idx 0 + (gatherDims2 wf).batchCoord (ix2 e k) 0
      + (gatherDims2 wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims2 wf).startIndexMap from List.mem_singleton.mpr rfl)]
    have hsi : (gatherDims2 wf).siIdx (ix2 e k) ⟨List.idxOf (0 : Fin 2) (gatherDims2 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherDims2 wf).start (ix2 e k) idx 1 + (gatherDims2 wf).batchCoord (ix2 e k) 1
      + (gatherDims2 wf).offCoord (ix2 e k) 1 = _
    rw [GatherDims.batchCoord_eq_zero _ _ _ List.not_mem_nil]
    have hs : (gatherDims2 wf).start (ix2 e k) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos (show (1 : Fin 2) ∈ (⟨2, ![50000, 128]⟩ : Shape).kept (([0] : List (Fin 2)) ++ []) by decide)]
    rfl

/-! ## The scatter-add, rank 2 -/

/-- Scatter of 800000 update rows (one scalar start index each) into a 50000×128 operand. -/
abbrev scatterDims2 (wf : ScatterDims.WF ⟨2, ![50000, 128]⟩ ⟨2, ![800000, 1]⟩ ⟨2, ![800000, 128]⟩ [1] [0] [0] 1) :
    ScatterDims ⟨2, ![50000, 128]⟩ ⟨2, ![800000, 1]⟩ ⟨2, ![800000, 128]⟩ where
  updateWindowDims := [1]
  insertedWindowDims := [0]
  scatterDimsToOperandDims := [0]
  indexVectorDim := 1
  wf := wf

section Scatter2
variable (wf : ScatterDims.WF ⟨2, ![50000, 128]⟩ ⟨2, ![800000, 1]⟩ ⟨2, ![800000, 128]⟩ [1] [0] [0] 1)
  (idx : IVec ⟨2, ![800000, 1]⟩ 32) (e : Fin 800000) (k : Fin 128)

/-- On the row axis the window of update (e, k) starts at the start word of e, read signed. -/
theorem scatter2_start0 : (scatterDims2 wf).start (ix2 e k) idx 0 = (idx (ix2 e (0 : Fin 1))).toInt := by
  unfold ScatterDims.start
  rw [dif_pos (show (0 : Fin 2) ∈ ([0] : List (Fin 2)) from List.mem_singleton.mpr rfl)]
  have hsi : (scatterDims2 wf).siIdx (ix2 e k) ⟨List.idxOf (0 : Fin 2) (scatterDims2 wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem scatter2_start1 : (scatterDims2 wf).start (ix2 e k) idx 1 = 0 := by
  unfold ScatterDims.start
  rw [dif_neg (show (1 : Fin 2) ∉ ([0] : List (Fin 2)) by decide)]

/-- The row axis is inserted: no window coordinate. -/
theorem scatter2_window0 : (scatterDims2 wf).window (ix2 e k) 0 = 0 := by
  unfold ScatterDims.window
  rw [dif_neg (show (0 : Fin 2) ∉ (⟨2, ![50000, 128]⟩ : Shape).kept ([0] : List (Fin 2)) by decide)]

/-- The column axis carries the update's column. -/
theorem scatter2_window1 : (scatterDims2 wf).window (ix2 e k) 1 = k.val := by
  unfold ScatterDims.window
  rw [dif_pos (show (1 : Fin 2) ∈ (⟨2, ![50000, 128]⟩ : Shape).kept ([0] : List (Fin 2)) by decide)]
  rfl

/-- Update (e, k) lands on (n, o) exactly when the start of e is n and k is o. -/
theorem scatter2_resultIdx_iff (n : Fin 50000) (o : Fin 128) :
    (scatterDims2 wf).resultIdx? (ix2 e k) idx = some (ix2 n o)
      ↔ (idx (ix2 e (0 : Fin 1))).toInt = (n.val : Int) ∧ k = o := by
  unfold ScatterDims.resultIdx?
  constructor
  · intro h
    split at h
    · rename_i hr
      have hf := Option.some.inj h
      have h0 : ((scatterDims2 wf).start (ix2 e k) idx 0 + ((scatterDims2 wf).window (ix2 e k) 0 : Nat)).toNat = n.val :=
        congrArg (fun f => (f 0).val) hf
      have h1 : ((scatterDims2 wf).start (ix2 e k) idx 1 + ((scatterDims2 wf).window (ix2 e k) 1 : Nat)).toNat = o.val :=
        congrArg (fun f => (f 1).val) hf
      have hr0 := (hr 0).1
      rw [scatter2_start0, scatter2_window0] at h0 hr0
      rw [scatter2_start1, scatter2_window1] at h1
      exact ⟨by omega, Fin.ext (by omega)⟩
    · exact absurd h (by simp)
  · rintro ⟨hn, rfl⟩
    have hr : ∀ a, 0 ≤ (scatterDims2 wf).start (ix2 e k) idx a + ((scatterDims2 wf).window (ix2 e k) a : Nat)
        ∧ (scatterDims2 wf).start (ix2 e k) idx a + ((scatterDims2 wf).window (ix2 e k) a : Nat)
          < ((⟨2, ![50000, 128]⟩ : Shape).size a : Nat) := by
      intro a
      match a with
      | ⟨0, _⟩ =>
        show 0 ≤ (scatterDims2 wf).start (ix2 e k) idx 0 + ((scatterDims2 wf).window (ix2 e k) 0 : Nat)
          ∧ (scatterDims2 wf).start (ix2 e k) idx 0 + ((scatterDims2 wf).window (ix2 e k) 0 : Nat) < ((50000 : Nat) : Int)
        rw [scatter2_start0, scatter2_window0, hn]
        have := n.isLt
        omega
      | ⟨1, _⟩ =>
        show 0 ≤ (scatterDims2 wf).start (ix2 e k) idx 1 + ((scatterDims2 wf).window (ix2 e k) 1 : Nat)
          ∧ (scatterDims2 wf).start (ix2 e k) idx 1 + ((scatterDims2 wf).window (ix2 e k) 1 : Nat) < ((128 : Nat) : Int)
        rw [scatter2_start1, scatter2_window1]
        have := k.isLt
        omega
    rw [dif_pos hr]
    congr 1
    funext a
    refine Fin.ext ?_
    match a with
    | ⟨0, _⟩ =>
      show ((scatterDims2 wf).start (ix2 e k) idx 0 + ((scatterDims2 wf).window (ix2 e k) 0 : Nat)).toNat = n.val
      rw [scatter2_start0, scatter2_window0, hn]
      omega
    | ⟨1, _⟩ =>
      show ((scatterDims2 wf).start (ix2 e k) idx 1 + ((scatterDims2 wf).window (ix2 e k) 1 : Nat)).toNat = k.val
      rw [scatter2_start1, scatter2_window1]
      omega

end Scatter2

/-- Element (n, o) of the scatter-add is the operand's plus the sum of the update rows whose start is n, at column o. -/
theorem scatterAdd2_apply (wf) (x : (⟨2, ![50000, 128]⟩ : Shape).Idx → EReal) (idx : IVec ⟨2, ![800000, 1]⟩ 32)
    (upd : (⟨2, ![800000, 128]⟩ : Shape).Idx → EReal) (n : Fin 50000) (o : Fin 128) :
    Ideal.hostScatterAdd (scatterDims2 wf) x idx upd (ix2 n o)
      = x (ix2 n o) + ∑ e ∈ Finset.univ.filter (fun e : Fin 800000 => (idx (ix2 e (0 : Fin 1))).toInt = (n.val : Int)),
          upd (ix2 e o) := by
  unfold Ideal.hostScatterAdd
  refine congrArg (fun z => x (ix2 n o) + z) ?_
  rw [Finset.sum_filter, sum_idx2, Finset.sum_filter]
  refine Finset.sum_congr rfl fun e _ => ?_
  simp only [scatter2_resultIdx_iff]
  by_cases he : (idx (ix2 e (0 : Fin 1))).toInt = (n.val : Int)
  · simp only [he, true_and, if_true]
    rw [Finset.sum_ite_eq' Finset.univ o (fun k => upd (ix2 e k))]
    simp
  · simp only [he, false_and, if_false]
    exact Finset.sum_const_zero

/-! ## Rank-3 index sets -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row gather, rank 3 -/

/-- The same gather with the rows carried as 1×128 slabs. -/
abbrev gatherDims3 (wf : GatherDims.WF ⟨3, ![50000, 1, 128]⟩ ⟨2, ![800000, 1]⟩ ⟨3, ![800000, 1, 128]⟩ [1, 2] [0] [] [0] [] 1
      ![1, 1, 128]) :
    GatherDims ⟨3, ![50000, 1, 128]⟩ ⟨2, ![800000, 1]⟩ ⟨3, ![800000, 1, 128]⟩ where
  offsetDims := [1, 2]
  collapsedSliceDims := [0]
  operandBatchingDims := []
  startIndicesBatchingDims := []
  startIndexMap := [0]
  indexVectorDim := 1
  sliceSizes := ![1, 1, 128]
  wf := wf

/-- Result element (e, 0, k) of the row gather is the operand at (clamped start of e, 0, k). -/
theorem gather3_apply {α : Type} (wf) (x : (⟨3, ![50000, 1, 128]⟩ : Shape).Idx → α) (idx : IVec ⟨2, ![800000, 1]⟩ 32)
    (e : Fin 800000) (k : Fin 128) :
    Host.gather (gatherDims3 wf) x idx (ix3 e (0 : Fin 1) k) = x (ix3 (gRow (idx (ix2 e (0 : Fin 1)))) (0 : Fin 1) k) := by
  unfold Host.gather
  congr 1
  funext a
  refine Fin.ext ?_
  match a with
  | ⟨0, _⟩ =>
    show (gatherDims3 wf).start (ix3 e (0 : Fin 1) k) idx 0 + (gatherDims3 wf).batchCoord (ix3 e (0 : Fin 1) k) 0
      + (gatherDims3 wf).offCoord (ix3 e (0 : Fin 1) k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gatherDims3 wf).startIndexMap from List.mem_singleton.mpr rfl)]
    have hsi : (gatherDims3 wf).siIdx (ix3 e (0 : Fin 1) k) ⟨List.idxOf (0 : Fin 3) (gatherDims3 wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherDims3 wf).start (ix3 e (0 : Fin 1) k) idx 1 + (gatherDims3 wf).batchCoord (ix3 e (0 : Fin 1) k) 1
      + (gatherDims3 wf).offCoord (ix3 e (0 : Fin 1) k) 1 = _
    rw [GatherDims.batchCoord_eq_zero _ _ _ List.not_mem_nil]
    have hs : (gatherDims3 wf).start (ix3 e (0 : Fin 1) k) idx 1 = 0 := by
      unfold GatherDims.start
      rw [dif_neg (show (1 : Fin 3) ∉ ([0] : List (Fin 3)) by decide)]
    rw [hs]
    simp only [Nat.add_zero, Nat.zero_add]
    unfold GatherDims.offCoord
    rw [dif_pos (show (1 : Fin 3) ∈ (⟨3, ![50000, 1, 128]⟩ : Shape).kept (([0] : List (Fin 3)) ++ []) by decide)]
    rfl
  | ⟨2, _⟩ =>
    show (gatherDims3 wf).start (ix3 e (0 : Fin 1) k) idx 2 + (gatherDims3 wf).batchCoord (ix3 e (0 : Fin 1) k) 2
      + (gatherDims3 wf).offCoord (ix3 e (0 : Fin 1) k) 2 = _
    rw [GatherDims.batchCoord_eq_zero _ _ _ List.not_mem_nil]
    have hs : (gatherDims3 wf).start (ix3 e (0 : Fin 1) k) idx 2 = 0 := by
      unfold GatherDims.start
      rw [dif_neg (show (2 : Fin 3) ∉ ([0] : List (Fin 3)) by decide)]
    rw [hs]
    simp only [Nat.add_zero, Nat.zero_add]
    unfold GatherDims.offCoord
    rw [dif_pos (show (2 : Fin 3) ∈ (⟨3, ![50000, 1, 128]⟩ : Shape).kept (([0] : List (Fin 3)) ++ []) by decide)]
    rfl

/-! ## The scatter-add, rank 3 -/

/-- The same scatter with the rows carried as 1×128 slabs. -/
abbrev scatterDims3 (wf : ScatterDims.WF ⟨3, ![50000, 1, 128]⟩ ⟨2, ![800000, 1]⟩ ⟨3, ![800000, 1, 128]⟩ [1, 2] [0] [0] 1) :
    ScatterDims ⟨3, ![50000, 1, 128]⟩ ⟨2, ![800000, 1]⟩ ⟨3, ![800000, 1, 128]⟩ where
  updateWindowDims := [1, 2]
  insertedWindowDims := [0]
  scatterDimsToOperandDims := [0]
  indexVectorDim := 1
  wf := wf

section Scatter3
variable (wf : ScatterDims.WF ⟨3, ![50000, 1, 128]⟩ ⟨2, ![800000, 1]⟩ ⟨3, ![800000, 1, 128]⟩ [1, 2] [0] [0] 1)
  (idx : IVec ⟨2, ![800000, 1]⟩ 32) (e : Fin 800000) (k : Fin 128)

/-- On the row axis the window of update (e, 0, k) starts at the start word of e, read signed. -/
theorem scatter3_start0 :
    (scatterDims3 wf).start (ix3 e (0 : Fin 1) k) idx 0 = (idx (ix2 e (0 : Fin 1))).toInt := by
  unfold ScatterDims.start
  rw [dif_pos (show (0 : Fin 3) ∈ ([0] : List (Fin 3)) from List.mem_singleton.mpr rfl)]
  have hsi : (scatterDims3 wf).siIdx (ix3 e (0 : Fin 1) k) ⟨List.idxOf (0 : Fin 3) (scatterDims3 wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the other two axes it starts at 0. -/
theorem scatter3_start1 : (scatterDims3 wf).start (ix3 e (0 : Fin 1) k) idx 1 = 0 := by
  unfold ScatterDims.start
  rw [dif_neg (show (1 : Fin 3) ∉ ([0] : List (Fin 3)) by decide)]

theorem scatter3_start2 : (scatterDims3 wf).start (ix3 e (0 : Fin 1) k) idx 2 = 0 := by
  unfold ScatterDims.start
  rw [dif_neg (show (2 : Fin 3) ∉ ([0] : List (Fin 3)) by decide)]

/-- The row axis is inserted: no window coordinate. -/
theorem scatter3_window0 : (scatterDims3 wf).window (ix3 e (0 : Fin 1) k) 0 = 0 := by
  unfold ScatterDims.window
  rw [dif_neg (show (0 : Fin 3) ∉ (⟨3, ![50000, 1, 128]⟩ : Shape).kept ([0] : List (Fin 3)) by decide)]

/-- The middle axis carries the update's middle coordinate, 0. -/
theorem scatter3_window1 : (scatterDims3 wf).window (ix3 e (0 : Fin 1) k) 1 = 0 := by
  unfold ScatterDims.window
  rw [dif_pos (show (1 : Fin 3) ∈ (⟨3, ![50000, 1, 128]⟩ : Shape).kept ([0] : List (Fin 3)) by decide)]
  rfl

/-- The column axis carries the update's column. -/
theorem scatter3_window2 : (scatterDims3 wf).window (ix3 e (0 : Fin 1) k) 2 = k.val := by
  unfold ScatterDims.window
  rw [dif_pos (show (2 : Fin 3) ∈ (⟨3, ![50000, 1, 128]⟩ : Shape).kept ([0] : List (Fin 3)) by decide)]
  rfl

/-- Update (e, 0, k) lands on (n, 0, o) exactly when the start of e is n and k is o. -/
theorem scatter3_resultIdx_iff (n : Fin 50000) (o : Fin 128) :
    (scatterDims3 wf).resultIdx? (ix3 e (0 : Fin 1) k) idx = some (ix3 n (0 : Fin 1) o)
      ↔ (idx (ix2 e (0 : Fin 1))).toInt = (n.val : Int) ∧ k = o := by
  unfold ScatterDims.resultIdx?
  constructor
  · intro h
    split at h
    · rename_i hr
      have hf := Option.some.inj h
      have h0 : ((scatterDims3 wf).start (ix3 e (0 : Fin 1) k) idx 0
          + ((scatterDims3 wf).window (ix3 e (0 : Fin 1) k) 0 : Nat)).toNat = n.val :=
        congrArg (fun f => (f 0).val) hf
      have h2 : ((scatterDims3 wf).start (ix3 e (0 : Fin 1) k) idx 2
          + ((scatterDims3 wf).window (ix3 e (0 : Fin 1) k) 2 : Nat)).toNat = o.val :=
        congrArg (fun f => (f 2).val) hf
      have hr0 := (hr 0).1
      rw [scatter3_start0, scatter3_window0] at h0 hr0
      rw [scatter3_start2, scatter3_window2] at h2
      exact ⟨by omega, Fin.ext (by omega)⟩
    · exact absurd h (by simp)
  · rintro ⟨hn, rfl⟩
    have hr : ∀ a, 0 ≤ (scatterDims3 wf).start (ix3 e (0 : Fin 1) k) idx a
          + ((scatterDims3 wf).window (ix3 e (0 : Fin 1) k) a : Nat)
        ∧ (scatterDims3 wf).start (ix3 e (0 : Fin 1) k) idx a + ((scatterDims3 wf).window (ix3 e (0 : Fin 1) k) a : Nat)
          < ((⟨3, ![50000, 1, 128]⟩ : Shape).size a : Nat) := by
      intro a
      match a with
      | ⟨0, _⟩ =>
        show 0 ≤ (scatterDims3 wf).start (ix3 e (0 : Fin 1) k) idx 0 + ((scatterDims3 wf).window (ix3 e (0 : Fin 1) k) 0 : Nat)
          ∧ (scatterDims3 wf).start (ix3 e (0 : Fin 1) k) idx 0 + ((scatterDims3 wf).window (ix3 e (0 : Fin 1) k) 0 : Nat)
            < ((50000 : Nat) : Int)
        rw [scatter3_start0, scatter3_window0, hn]
        have := n.isLt
        omega
      | ⟨1, _⟩ =>
        show 0 ≤ (scatterDims3 wf).start (ix3 e (0 : Fin 1) k) idx 1 + ((scatterDims3 wf).window (ix3 e (0 : Fin 1) k) 1 : Nat)
          ∧ (scatterDims3 wf).start (ix3 e (0 : Fin 1) k) idx 1 + ((scatterDims3 wf).window (ix3 e (0 : Fin 1) k) 1 : Nat)
            < ((1 : Nat) : Int)
        rw [scatter3_start1, scatter3_window1]
        omega
      | ⟨2, _⟩ =>
        show 0 ≤ (scatterDims3 wf).start (ix3 e (0 : Fin 1) k) idx 2 + ((scatterDims3 wf).window (ix3 e (0 : Fin 1) k) 2 : Nat)
          ∧ (scatterDims3 wf).start (ix3 e (0 : Fin 1) k) idx 2 + ((scatterDims3 wf).window (ix3 e (0 : Fin 1) k) 2 : Nat)
            < ((128 : Nat) : Int)
        rw [scatter3_start2, scatter3_window2]
        have := k.isLt
        omega
    rw [dif_pos hr]
    congr 1
    funext a
    refine Fin.ext ?_
    match a with
    | ⟨0, _⟩ =>
      show ((scatterDims3 wf).start (ix3 e (0 : Fin 1) k) idx 0
        + ((scatterDims3 wf).window (ix3 e (0 : Fin 1) k) 0 : Nat)).toNat = n.val
      rw [scatter3_start0, scatter3_window0, hn]
      omega
    | ⟨1, _⟩ =>
      show ((scatterDims3 wf).start (ix3 e (0 : Fin 1) k) idx 1
        + ((scatterDims3 wf).window (ix3 e (0 : Fin 1) k) 1 : Nat)).toNat = 0
      rw [scatter3_start1, scatter3_window1]
      omega
    | ⟨2, _⟩ =>
      show ((scatterDims3 wf).start (ix3 e (0 : Fin 1) k) idx 2
        + ((scatterDims3 wf).window (ix3 e (0 : Fin 1) k) 2 : Nat)).toNat = k.val
      rw [scatter3_start2, scatter3_window2]
      omega

end Scatter3

/-- Element (n, 0, o) of the scatter-add is the operand's plus the sum of the update rows whose start is n, at column o. -/
theorem scatterAdd3_apply (wf) (x : (⟨3, ![50000, 1, 128]⟩ : Shape).Idx → EReal) (idx : IVec ⟨2, ![800000, 1]⟩ 32)
    (upd : (⟨3, ![800000, 1, 128]⟩ : Shape).Idx → EReal) (n : Fin 50000) (o : Fin 128) :
    Ideal.hostScatterAdd (scatterDims3 wf) x idx upd (ix3 n (0 : Fin 1) o)
      = x (ix3 n (0 : Fin 1) o)
        + ∑ e ∈ Finset.univ.filter (fun e : Fin 800000 => (idx (ix2 e (0 : Fin 1))).toInt = (n.val : Int)),
          upd (ix3 e (0 : Fin 1) o) := by
  unfold Ideal.hostScatterAdd
  refine congrArg (fun z => x (ix3 n (0 : Fin 1) o) + z) ?_
  rw [Finset.sum_filter, sum_idx3, Finset.sum_filter]
  refine Finset.sum_congr rfl fun e _ => ?_
  rw [Fin.sum_univ_one]
  simp only [scatter3_resultIdx_iff]
  by_cases he : (idx (ix2 e (0 : Fin 1))).toInt = (n.val : Int)
  · simp only [he, true_and, if_true]
    rw [Finset.sum_ite_eq' Finset.univ o (fun k => upd (ix3 e (0 : Fin 1) k))]
    simp
  · simp only [he, false_and, if_false]
    exact Finset.sum_const_zero

end Cert.Sage

end
-- ==== Proof.BridgeMessage.lean ====
/-
  The message stage: the two programs' per-edge messages are one number.

  For edge e and output feature k the kernel contracts the gathered source row against the first half of the
  weight and the edge features against the second half, and adds the bias; the reference joins the two feature
  rows into one of length 256 and contracts once. A sum over Fin 256 is the sum over its two halves; in the
  lower half the joined row is the gathered source row, in the upper half the edge features. Both gathers read
  the same row: the same start index, read signed and clamped.
-/
import proofs.«130609_j6545530159693_1_alg».proof.Proof.GlueAt
import proofs.«130609_j6545530159693_1_alg».proof.Proof.Spec
import proofs.«130609_j6545530159693_1_alg».proof.Proof.RowMoves
import proofs.«130609_j6545530159693_1_alg».proof.Proof.Gen.ReferenceIdeal.Read

set_option maxRecDepth 16384

noncomputable section

namespace Cert.Sage.Bridge

open Cert.KernelIdeal Cert.KernelIdeal.Folds Cert.KernelIdeal.Facts₀
open Cert.ReferenceIdeal.Read
open Idealize.ShloMosaic Idealize.ShloMosaic.ValueIdx

/-- Both programs' gather start indices are one term. -/
theorem srcIdx_eq (x2 : S800000.Idx → BitVec 32) : srcIdx x2 = val_main_v5 (F := Ideal) x2 := rfl

/-- The kernel's gathered source rows, as a matrix: row e is node row `gRow` of the start word. -/
theorem gathered2_at (x0 : S50000x1x128.Idx → EReal) (x2 : S800000.Idx → BitVec 32) (e : Fin 800000) (j : Fin 128) :
    Host.gather gather_S50000x128_S800000x1_S800000x128_1_0_n_n_0_1_1128
        (shapeCast S50000x128 x0 shapeCasts_S50000x1x128_S50000x128) (srcIdx x2) (ix2 e j)
      = x0 (ix3 (Cert.Sage.gRow (srcIdx x2 (ix2 e (0 : Fin 1)))) (0 : Fin 1) j) :=
  (Cert.Sage.gather2_apply gather_S50000x128_S800000x1_S800000x128_1_0_n_n_0_1_1128_wf _ (srcIdx x2) e j).trans
    (nodes_at x0 _ j)

/-- The reference's gathered source rows at rank 3. -/
theorem gathered3_at (x0 : S50000x1x128.Idx → EReal) (x2 : S800000.Idx → BitVec 32) (e : Fin 800000) (j : Fin 128) :
    val_main_v6 (F := Ideal) x0 x2 (ix3 e (0 : Fin 1) j)
      = x0 (ix3 (Cert.Sage.gRow (srcIdx x2 (ix2 e (0 : Fin 1)))) (0 : Fin 1) j) :=
  Cert.Sage.gather3_apply Cert.ReferenceIdeal.Facts₀.gather_S50000x1x128_S800000x1_S800000x1x128_12_0_n_n_0_1_11128_wf x0 (srcIdx x2) e j

/-- The joined row of the reference, lower half: the gathered source row. -/
theorem joined_lo (x0 : S50000x1x128.Idx → EReal) (x1 : S800000x1x128.Idx → EReal) (x2 : S800000.Idx → BitVec 32)
    (e : Fin 800000) (j : Fin 128) :
    val_main_v7 (F := Ideal) x0 x1 x2 (ix3 e (0 : Fin 1) (⟨j.val, by omega⟩ : Fin 256)) = val_main_v6 (F := Ideal) x0 x2 (ix3 e (0 : Fin 1) j) := by
  unfold val_main_v7
  refine concatenate_pair_apply_left (t := Cert.ReferenceIdeal.S800000x1x256) (s₁ := Cert.ReferenceIdeal.S800000x1x128) (s₂ := Cert.ReferenceIdeal.S800000x1x128) (2 : Fin 3) _ _ _ _ rfl (ix3 e (0 : Fin 1) j) ?_
  intro b
  match b with
  | ⟨0, _⟩ => rfl
  | ⟨1, _⟩ => rfl
  | ⟨2, _⟩ => rfl

/-- The joined row of the reference, upper half: the edge features. -/
theorem joined_hi (x0 : S50000x1x128.Idx → EReal) (x1 : S800000x1x128.Idx → EReal) (x2 : S800000.Idx → BitVec 32)
    (e : Fin 800000) (j : Fin 128) :
    val_main_v7 (F := Ideal) x0 x1 x2 (ix3 e (0 : Fin 1) (⟨128 + j.val, by omega⟩ : Fin 256)) = x1 (ix3 e (0 : Fin 1) j) := by
  unfold val_main_v7
  refine concatenate_pair_apply_right (t := Cert.ReferenceIdeal.S800000x1x256) (s₁ := Cert.ReferenceIdeal.S800000x1x128) (s₂ := Cert.ReferenceIdeal.S800000x1x128) (2 : Fin 3) _ _ _ _ rfl rfl (ix3 e (0 : Fin 1) j) ?_ ?_
  · intro b hb
    match b with
    | ⟨0, _⟩ => rfl
    | ⟨1, _⟩ => rfl
    | ⟨2, _⟩ => exact absurd rfl hb
  · show j.val + 128 = 128 + j.val
    omega

/-- THE MESSAGE: the kernel's two half contractions plus bias are the reference's one contraction plus bias. -/
theorem message_eq (x0 : S50000x1x128.Idx → EReal) (x1 : S800000x1x128.Idx → EReal) (x2 : S800000.Idx → BitVec 32)
    (x4 : S128x256.Idx → EReal) (x5 : S128.Idx → EReal) (e : Fin 800000) (k : Fin 128) :
    Cert.Sage.lin2At
        (Host.gather gather_S50000x128_S800000x1_S800000x128_1_0_n_n_0_1_1128
          (shapeCast S50000x128 x0 shapeCasts_S50000x1x128_S50000x128) (srcIdx x2))
        (shapeCast S800000x128 x1 shapeCasts_S800000x1x128_S800000x128)
        (wLo (F := Ideal) x4) (wHi (F := Ideal) x4) (shapeCast S1x128 x5 shapeCasts_S128_S1x128) e k
      = val_main_v11 (F := Ideal) x0 x1 x2 x4 x5 (ix3 e (0 : Fin 1) k) := by
  rw [val_main_v11_apply, val_main_v8_apply, Cert.Sage.sum_fin256_halves]
  unfold Cert.Sage.lin2At
  refine congrArg₂ (· + ·) (congrArg₂ (· + ·) (Finset.sum_congr rfl fun j _ => ?_) (Finset.sum_congr rfl fun j _ => ?_)) ?_
  · -- lower half
    have hl : lidx_main_v8 (ix3 e (0 : Fin 1) k) (⟨j.val, by omega⟩ : Fin 256) = ix3 e (0 : Fin 1) (⟨j.val, by omega⟩ : Fin 256) :=
      funext fun a => Fin.ext (by match a with | ⟨0, _⟩ => rfl | ⟨1, _⟩ => rfl | ⟨2, _⟩ => rfl)
    have hr : ridx_main_v8 (ix3 e (0 : Fin 1) k) (⟨j.val, by omega⟩ : Fin 256) = ix2 k (⟨j.val, by omega⟩ : Fin 256) :=
      funext fun a => Fin.ext (by match a with | ⟨0, _⟩ => rfl | ⟨1, _⟩ => rfl)
    rw [hl, hr, joined_lo, gathered3_at, gathered2_at, wLo_at]
  · -- upper half
    have hl : lidx_main_v8 (ix3 e (0 : Fin 1) k) (⟨128 + j.val, by omega⟩ : Fin 256) = ix3 e (0 : Fin 1) (⟨128 + j.val, by omega⟩ : Fin 256) :=
      funext fun a => Fin.ext (by match a with | ⟨0, _⟩ => rfl | ⟨1, _⟩ => rfl | ⟨2, _⟩ => rfl)
    have hr : ridx_main_v8 (ix3 e (0 : Fin 1) k) (⟨128 + j.val, by omega⟩ : Fin 256) = ix2 k (⟨128 + j.val, by omega⟩ : Fin 256) :=
      funext fun a => Fin.ext (by match a with | ⟨0, _⟩ => rfl | ⟨1, _⟩ => rfl)
    rw [hl, hr, joined_hi, edges_at, wHi_at]
  · -- the bias
    rw [val_main_v10_apply, val_main_v9_apply, bias_at]
    exact congrArg x5 (funext fun a => Fin.ext (by match a with | ⟨0, _⟩ => rfl))

end Cert.Sage.Bridge

end
-- ==== Proof.BridgeMean.lean ====
/-
  The aggregation stage: the mean of the incoming messages is one number in both programs.

  A scatter-add from zero puts at node n, feature k the sum of the messages of the edges whose destination
  word, read signed, is n (an edge whose word is outside [0, 50000) contributes nowhere). That description
  does not depend on whether the messages are laid out as [E, 128] or [E, 1, 128], so equal messages give
  equal sums. The divisor, the number of incoming edges clipped below at one, is the same term in both
  programs, read through two broadcasts on each side.
-/
import proofs.«130609_j6545530159693_1_alg».proof.Proof.BridgeMessage

set_option maxRecDepth 16384

noncomputable section

namespace Cert.Sage.Bridge

open Cert.KernelIdeal Cert.KernelIdeal.Folds Cert.KernelIdeal.Facts₀
open Cert.ReferenceIdeal.Read
open Idealize.ShloMosaic Idealize.ShloMosaic.ValueIdx

/-- Both programs' scatter indices are one term. -/
theorem dstIdx_eq (x3 : S800000.Idx → BitVec 32) : dstIdx x3 = val_main_v13 (F := Ideal) x3 := rfl

/-- The kernel's divisor at (n, k) is the clipped count of node n. -/
theorem degDen_at (x3 : S800000.Idx → BitVec 32) (n : Fin 50000) (k : Fin 128) :
    degDen (F := Ideal) x3 (ix2 n k) = val_main_v20 (F := Ideal) x3 (ix1 n) := by
  unfold degDen
  refine (broadcastInDim_apply _ bcast_S50000x1_S50000x128_0_1 _ (ix2 n k) (ix2 n (0 : Fin 1)) ?_).trans ?_
  · intro a
    match a with
    | ⟨0, _⟩ => show n.val = if (50000 : Nat) = 1 then 0 else n.val; rw [if_neg (by decide)]
    | ⟨1, _⟩ => show 0 = if (1 : Nat) = 1 then 0 else k.val; rw [if_pos rfl]
  refine (broadcastInDim_apply _ bcast_S50000_S50000x1_0 _ (ix2 n (0 : Fin 1)) (ix1 n) ?_).trans ?_
  · intro a
    match a with
    | ⟨0, _⟩ => show n.val = if (50000 : Nat) = 1 then 0 else n.val; rw [if_neg (by decide)]
  rfl

/-- The reference's divisor at (n, 0, k) is the clipped count of node n. -/
theorem den3_at (x3 : S800000.Idx → BitVec 32) (n : Fin 50000) (k : Fin 128) :
    val_main_v22 (F := Ideal) x3 (ix3 n (0 : Fin 1) k) = val_main_v20 (F := Ideal) x3 (ix1 n) := by
  rw [val_main_v22_apply, val_main_v21_apply]
  exact congrArg (val_main_v20 (F := Ideal) x3) (funext fun a => Fin.ext (by match a with | ⟨0, _⟩ => rfl))

/-- A broadcast scalar constant reads the constant's value at every index. -/
theorem bcast_const_at {t : Shape} (h : (⟨0, ![]⟩ : Shape).BroadcastsInDim t (![] : Fin 0 → Fin t.rank)) (b : BitVec FTy.f32.bits) (j : t.Idx) :
    broadcastInDim t (![] : Fin 0 → Fin t.rank) h (constant (F := Ideal) (⟨0, ![]⟩ : Shape) .f32 b) j = Ideal.ofBits .f32 b :=
  (broadcastInDim_apply _ h _ j ix0 (fun a => a.elim0)).trans (constant_apply (s := (⟨0, ![]⟩ : Shape)) (φ := .f32) b ix0)

/-- The reference's initial sum array is zero's word everywhere. -/
theorem init3_at (j : Cert.ReferenceIdeal.S50000x1x128.Idx) :
    val_main_v12 (F := Ideal) j = Ideal.ofBits .f32 0x00000000#32 := by
  unfold val_main_v12 val_main_cst
  exact bcast_const_at _ _ j

/-! Unfolding lemmas, stated at any float instance (there the operations are opaque, so these are plain
    definitional unfoldings); they are only REWRITTEN with at the extended reals. -/

/-- The host's accumulating scatter is the instance's, at the one-device schedule. -/
theorem scatterAdd_unfold {F : FTy → Type} [FloatOps F] {s si u : Shape} {φ : FTy} {w : Nat} (d : ScatterDims s si u)
    (x : FVec F s φ) (idx : IVec si w) (upd : FVec F u φ) :
    Host.scatterAdd d x idx upd = FloatOps.hostScatterAdd d .single x idx upd := rfl

/-- The kernel's mean at an index: the sum of messages over the clipped count. -/
theorem meanOf_at {F : FTy → Type} [FloatOps F] (x3 : S800000.Idx → BitVec 32) (msg : S800000x128.Idx → Elt F .f32) (i : S50000x128.Idx) :
    meanOf (F := F) x3 msg i
      = FloatOps.hostDivf
          (Host.scatterAdd scatter_S50000x128_S800000x1_S800000x128_1_0_0_1
            (broadcastInDim S50000x128 ![] bcast_S_S50000x128 (constant (F := F) S_ .f32 0x00000000#32)) (dstIdx x3) msg i)
          (degDen (F := F) x3 i) := rfl

/-- The reference's sum array is the scatter-add of its messages (its definition, unfolded once). -/
theorem sumR_unfold {F : FTy → Type} [FloatOps F] (x0 : (⟨Cert.ReferenceIdeal.S50000x1x128, .f32⟩ : BufTy).Contents (Elt F))
    (x1 : (⟨Cert.ReferenceIdeal.S800000x1x128, .f32⟩ : BufTy).Contents (Elt F))
    (x2 x3 : (⟨Cert.ReferenceIdeal.S800000, .i32⟩ : BufTy).Contents (Elt F))
    (x4 : (⟨Cert.ReferenceIdeal.S128x256, .f32⟩ : BufTy).Contents (Elt F)) (x5 : (⟨Cert.ReferenceIdeal.S128, .f32⟩ : BufTy).Contents (Elt F)) :
    val_main_v14 (F := F) x0 x1 x2 x3 x4 x5
      = Host.scatterAdd Cert.ReferenceIdeal.scatter_S50000x1x128_S800000x1_S800000x1x128_12_0_0_1 (val_main_v12 (F := F))
          (val_main_v13 (F := F) x3) (val_main_v11 (F := F) x0 x1 x2 x4 x5) := rfl

/-- The two programs' scatter dimension numbers are the generic ones of the row-moving lemmas. -/
theorem dimsK_eq : scatter_S50000x128_S800000x1_S800000x128_1_0_0_1
    = Cert.Sage.scatterDims2 scatter_S50000x128_S800000x1_S800000x128_1_0_0_1_wf := rfl
theorem dimsR_eq : Cert.ReferenceIdeal.scatter_S50000x1x128_S800000x1_S800000x1x128_12_0_0_1
    = Cert.Sage.scatterDims3 Cert.ReferenceIdeal.Facts₀.scatter_S50000x1x128_S800000x1_S800000x1x128_12_0_0_1_wf := rfl

/-- The kernel's sum of messages at (n, k): zero's word plus the messages of the edges whose destination is n. -/
theorem sumK_at (x3 : S800000.Idx → BitVec 32) (msg : S800000x128.Idx → EReal) (n : Fin 50000) (k : Fin 128) :
    Host.scatterAdd (F := Ideal) scatter_S50000x128_S800000x1_S800000x128_1_0_0_1
        (broadcastInDim S50000x128 ![] bcast_S_S50000x128 (constant (F := Ideal) S_ .f32 0x00000000#32)) (dstIdx x3) msg (ix2 n k)
      = Ideal.ofBits .f32 0x00000000#32
        + ∑ e ∈ Finset.univ.filter (fun e : Fin 800000 => (dstIdx x3 (ix2 e (0 : Fin 1))).toInt = (n.val : Int)), msg (ix2 e k) := by
  rw [scatterAdd_unfold, Ideal.hostScatterAdd_def, dimsK_eq, Cert.Sage.scatterAdd2_apply, bcast_const_at]

/-- The reference's sum of messages at (n, 0, k). -/
theorem sumR_at (x0 : S50000x1x128.Idx → EReal) (x1 : S800000x1x128.Idx → EReal) (x2 x3 : S800000.Idx → BitVec 32)
    (x4 : S128x256.Idx → EReal) (x5 : S128.Idx → EReal) (n : Fin 50000) (k : Fin 128) :
    val_main_v14 (F := Ideal) x0 x1 x2 x3 x4 x5 (ix3 n (0 : Fin 1) k)
      = Ideal.ofBits .f32 0x00000000#32
        + ∑ e ∈ Finset.univ.filter (fun e : Fin 800000 => (val_main_v13 (F := Ideal) x3 (ix2 e (0 : Fin 1))).toInt = (n.val : Int)),
            val_main_v11 (F := Ideal) x0 x1 x2 x4 x5 (ix3 e (0 : Fin 1) k) := by
  rw [sumR_unfold, scatterAdd_unfold, Ideal.hostScatterAdd_def, dimsR_eq, Cert.Sage.scatterAdd3_apply, init3_at]

/-- THE MEAN: from equal messages, equal means. -/
theorem mean_eq (x0 : S50000x1x128.Idx → EReal) (x1 : S800000x1x128.Idx → EReal) (x2 x3 : S800000.Idx → BitVec 32)
    (x4 : S128x256.Idx → EReal) (x5 : S128.Idx → EReal) (msg : S800000x128.Idx → EReal)
    (hmsg : ∀ (e : Fin 800000) (k : Fin 128), msg (ix2 e k) = val_main_v11 (F := Ideal) x0 x1 x2 x4 x5 (ix3 e (0 : Fin 1) k))
    (n : Fin 50000) (k : Fin 128) :
    meanOf (F := Ideal) x3 msg (ix2 n k) = val_main_v23 (F := Ideal) x0 x1 x2 x3 x4 x5 (ix3 n (0 : Fin 1) k) := by
  rw [val_main_v23_apply, den3_at, sumR_at, meanOf_at, degDen_at, sumK_at, dstIdx_eq]
  refine congrArg (fun z => FloatOps.hostDivf (Ideal.ofBits .f32 0x00000000#32 + z) (val_main_v20 (F := Ideal) x3 (ix1 n))) ?_
  exact Finset.sum_congr rfl fun e _ => hmsg e k

end Cert.Sage.Bridge

end
-- ==== Proof.BridgeOutput.lean ====
/-
  The apply stage and the whole layer.

  For node n and output feature o the kernel contracts the node's features against the first half of the
  weight and the mean of its incoming messages against the second half, adds the bias and clips below at zero;
  the reference joins features and mean into one row of length 256, contracts once, adds the bias and clips.
  Again a sum over Fin 256 is the sum over its two halves. With the message and mean stages this makes the two
  programs' results one function of the eight arguments, index by index.
-/
import proofs.«130609_j6545530159693_1_alg».proof.Proof.BridgeMean

set_option maxRecDepth 16384

noncomputable section

namespace Cert.Sage.Bridge

open Cert.KernelIdeal Cert.KernelIdeal.Folds Cert.KernelIdeal.Facts₀
open Cert.ReferenceIdeal.Read
open Idealize.ShloMosaic Idealize.ShloMosaic.ValueIdx

/-- The reference's second joined row, lower half: the node's features. -/
theorem joined2_lo (x0 : S50000x1x128.Idx → EReal) (x1 : S800000x1x128.Idx → EReal) (x2 x3 : S800000.Idx → BitVec 32)
    (x4 : S128x256.Idx → EReal) (x5 : S128.Idx → EReal) (n : Fin 50000) (j : Fin 128) :
    val_main_v24 (F := Ideal) x0 x1 x2 x3 x4 x5 (ix3 n (0 : Fin 1) (⟨j.val, by omega⟩ : Fin 256)) = x0 (ix3 n (0 : Fin 1) j) := by
  unfold val_main_v24
  refine concatenate_pair_apply_left (t := Cert.ReferenceIdeal.S50000x1x256) (s₁ := Cert.ReferenceIdeal.S50000x1x128) (s₂ := Cert.ReferenceIdeal.S50000x1x128) (2 : Fin 3) _ _ _ _ rfl (ix3 n (0 : Fin 1) j) ?_
  intro b
  match b with
  | ⟨0, _⟩ => rfl
  | ⟨1, _⟩ => rfl
  | ⟨2, _⟩ => rfl

/-- The reference's second joined row, upper half: the mean of the incoming messages. -/
theorem joined2_hi (x0 : S50000x1x128.Idx → EReal) (x1 : S800000x1x128.Idx → EReal) (x2 x3 : S800000.Idx → BitVec 32)
    (x4 : S128x256.Idx → EReal) (x5 : S128.Idx → EReal) (n : Fin 50000) (j : Fin 128) :
    val_main_v24 (F := Ideal) x0 x1 x2 x3 x4 x5 (ix3 n (0 : Fin 1) (⟨128 + j.val, by omega⟩ : Fin 256))
      = val_main_v23 (F := Ideal) x0 x1 x2 x3 x4 x5 (ix3 n (0 : Fin 1) j) := by
  unfold val_main_v24
  refine concatenate_pair_apply_right (t := Cert.ReferenceIdeal.S50000x1x256) (s₁ := Cert.ReferenceIdeal.S50000x1x128) (s₂ := Cert.ReferenceIdeal.S50000x1x128) (2 : Fin 3) _ _ _ _ rfl rfl (ix3 n (0 : Fin 1) j) ?_ ?_
  · intro b hb
    match b with
    | ⟨0, _⟩ => rfl
    | ⟨1, _⟩ => rfl
    | ⟨2, _⟩ => exact absurd rfl hb
  · show j.val + 128 = 128 + j.val
    omega

/-- The clipped linear stage at row n, column o. -/
theorem lin2Relu_at {R : Nat} (x y : (⟨2, ![R, 128]⟩ : Shape).Idx → EReal) (wa wb : (⟨2, ![128, 128]⟩ : Shape).Idx → EReal)
    (b : (⟨2, ![1, 128]⟩ : Shape).Idx → EReal) (p : Fin R) (q : Fin 128) :
    Cert.Sage.lin2Relu x y wa wb b (ix2 p q)
      = max ((∑ k : Fin 128, x (ix2 p k) * wa (ix2 k q)) + (∑ k : Fin 128, y (ix2 p k) * wb (ix2 k q)) + b (ix2 (0 : Fin 1) q))
          (Ideal.ofBits .f32 0x00000000#32) := rfl

/-- THE OUTPUT: from equal means, equal results. -/
theorem output_eq (x0 : S50000x1x128.Idx → EReal) (x1 : S800000x1x128.Idx → EReal) (x2 x3 : S800000.Idx → BitVec 32)
    (x4 : S128x256.Idx → EReal) (x5 : S128.Idx → EReal) (x6 : S128x256.Idx → EReal) (x7 : S128.Idx → EReal)
    (hn : S50000x128.Idx → EReal)
    (hhn : ∀ (n : Fin 50000) (k : Fin 128), hn (ix2 n k) = val_main_v23 (F := Ideal) x0 x1 x2 x3 x4 x5 (ix3 n (0 : Fin 1) k))
    (n : Fin 50000) (o : Fin 128) :
    Cert.Sage.lin2Relu (shapeCast S50000x128 x0 shapeCasts_S50000x1x128_S50000x128) hn
        (wLo (F := Ideal) x6) (wHi (F := Ideal) x6) (shapeCast S1x128 x7 shapeCasts_S128_S1x128) (ix2 n o)
      = val_main_v29 (F := Ideal) x0 x1 x2 x3 x4 x5 x6 x7 (ix3 n (0 : Fin 1) o) := by
  rw [val_main_v29_apply, val_main_v28_apply, val_main_v25_apply, Cert.Sage.sum_fin256_halves]
  rw [lin2Relu_at]
  refine congrArg₂ max (congrArg₂ (· + ·) (congrArg₂ (· + ·) (Finset.sum_congr rfl fun j _ => ?_) (Finset.sum_congr rfl fun j _ => ?_)) ?_) ?_
  · have hl : lidx_main_v25 (ix3 n (0 : Fin 1) o) (⟨j.val, by omega⟩ : Fin 256) = ix3 n (0 : Fin 1) (⟨j.val, by omega⟩ : Fin 256) :=
      funext fun a => Fin.ext (by match a with | ⟨0, _⟩ => rfl | ⟨1, _⟩ => rfl | ⟨2, _⟩ => rfl)
    have hr : ridx_main_v25 (ix3 n (0 : Fin 1) o) (⟨j.val, by omega⟩ : Fin 256) = ix2 o (⟨j.val, by omega⟩ : Fin 256) :=
      funext fun a => Fin.ext (by match a with | ⟨0, _⟩ => rfl | ⟨1, _⟩ => rfl)
    rw [hl, hr, joined2_lo, nodes_at, wLo_at]
  · have hl : lidx_main_v25 (ix3 n (0 : Fin 1) o) (⟨128 + j.val, by omega⟩ : Fin 256) = ix3 n (0 : Fin 1) (⟨128 + j.val, by omega⟩ : Fin 256) :=
      funext fun a => Fin.ext (by match a with | ⟨0, _⟩ => rfl | ⟨1, _⟩ => rfl | ⟨2, _⟩ => rfl)
    have hr : ridx_main_v25 (ix3 n (0 : Fin 1) o) (⟨128 + j.val, by omega⟩ : Fin 256) = ix2 o (⟨128 + j.val, by omega⟩ : Fin 256) :=
      funext fun a => Fin.ext (by match a with | ⟨0, _⟩ => rfl | ⟨1, _⟩ => rfl)
    rw [hl, hr, joined2_hi, hhn, wHi_at]
  · rw [val_main_v27_apply, val_main_v26_apply, bias_at]
    exact congrArg x7 (funext fun a => Fin.ext (by match a with | ⟨0, _⟩ => rfl))
  · rw [val_main_call0_v0_apply, val_main_call0_cst_apply]
    rfl

/-- THE LAYER: the kernel's term and the reference's are one function of the eight arguments. -/
theorem layer_eq (x0 : S50000x1x128.Idx → EReal) (x1 : S800000x1x128.Idx → EReal) (x2 x3 : S800000.Idx → BitVec 32)
    (x4 : S128x256.Idx → EReal) (x5 : S128.Idx → EReal) (x6 : S128x256.Idx → EReal) (x7 : S128.Idx → EReal) :
    kernelTerm x0 x1 x2 x3 x4 x5 x6 x7 = val_main_v29 (F := Ideal) x0 x1 x2 x3 x4 x5 x6 x7 := by
  funext i
  obtain ⟨n, z, o, rfl⟩ : ∃ (n : Fin 50000) (z : Fin 1) (o : Fin 128), i = ix3 n z o := ⟨i 0, i 1, i 2, eq_ix3 i⟩
  obtain rfl : z = 0 := Subsingleton.elim _ _
  exact (result_at _ n o).trans (output_eq x0 x1 x2 x3 x4 x5 x6 x7 _
    (fun n k => mean_eq x0 x1 x2 x3 x4 x5 _
      (fun e k => (Cert.Sage.lin2_ix2 _ _ _ _ _ e k).trans (message_eq x0 x1 x2 x4 x5 e k)) n k) n o)

end Cert.Sage.Bridge

end
-- ==== Proof.lean ====
/-
  The proof of the certificate's claim for a GraphSAGE layer with mean aggregation.

  The frames of the two printed kernels are the generated ones (each @main is host operations around two
  regions, a message stage over the edges and an apply stage over the nodes); the reference's frame is its
  generated run with the result dropped; the ideal pass rewrote nothing. The value claim: at the extended reals
  the idealized kernel ends with its result at the layer's term of the arguments (Proof/KernelValue.lean: the
  run with every buffer named, the host operations read as functions, each region's blocks assembled into its
  array) and the reference ends at its own composed term (generated); the two terms are one function, index by
  index (Proof/BridgeMessage.lean, BridgeMean.lean, BridgeOutput.lean): a row gather reads the same row at either
  rank, a sum over 256 joined features is the sum over its two halves of 128, and a scatter-add sums the
  messages of exactly the edges whose destination is the node, whatever the layout.
-/
import proofs.«130609_j6545530159693_1_alg».proof.Defs
import proofs.«130609_j6545530159693_1_alg».proof.Proof.Gen.Kernel
import proofs.«130609_j6545530159693_1_alg».proof.Proof.Gen.Kernel.Skeleton
import proofs.«130609_j6545530159693_1_alg».proof.Proof.Gen.Kernel.Launch
import proofs.«130609_j6545530159693_1_alg».proof.Proof.Gen.Kernel.Points
import proofs.«130609_j6545530159693_1_alg».proof.Proof.Gen.Kernel.Frame
import proofs.«130609_j6545530159693_1_alg».proof.Proof.Gen.KernelIdeal
import proofs.«130609_j6545530159693_1_alg».proof.Proof.Gen.KernelIdeal.Skeleton
import proofs.«130609_j6545530159693_1_alg».proof.Proof.Gen.KernelIdeal.Launch
import proofs.«130609_j6545530159693_1_alg».proof.Proof.Gen.KernelIdeal.Points
import proofs.«130609_j6545530159693_1_alg».proof.Proof.Gen.KernelIdeal.Frame
import proofs.«130609_j6545530159693_1_alg».proof.Proof.Gen.ReferenceIdeal
import proofs.«130609_j6545530159693_1_alg».proof.Proof.Gen.ReferenceIdeal.Run
import proofs.«130609_j6545530159693_1_alg».proof.Proof.Gen.ReferenceIdeal.Read
import proofs.«130609_j6545530159693_1_alg».proof.Proof.Gen.Pre_finite_inputs
import proofs.«130609_j6545530159693_1_alg».proof.Proof.KernelValue
import proofs.«130609_j6545530159693_1_alg».proof.Proof.BridgeOutput
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the layer's term of the arguments, which agree. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Bridge.layer_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
